-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x352768 : Shape := ⟨3, ![4, 1, 352768]⟩
abbrev S168x23013 : Shape := ⟨2, ![168, 23013]⟩
abbrev S_ : Shape := ⟨0, ![]⟩

class Facts : Prop where
  bcast_S_S4x1x352768 : S_.BroadcastsInDim S4x1x352768 (![] : Fin 0 → Fin S4x1x352768.rank)
  reducesTo_S4x1x352768_S_d0_1_2 : S4x1x352768.ReducesTo [0, 1, 2] S_
  h_S_ : 0 < S_.numel
  bcast_S_S168x23013 : S_.BroadcastsInDim S168x23013 (![] : Fin 0 → Fin S168x23013.rank)
  reducesTo_S168x23013_S_d0_1 : S168x23013.ReducesTo [0, 1] S_

variable [Facts]

def fn {F : FTy → Type} [FloatOps F] (main_arg0 : FVec F S4x1x352768 .f32) (main_arg1 : FVec F S168x23013 .f32) (main_arg2 : FVec F S168x23013 .f32) : IVec S_ 1 :=
  let main_v0 : FVec F S4x1x352768 .f32 := Host.absf main_arg0
  let main_cst : FVec F S_ .f32 := constant S_ .f32 0x7F800000#32
  let main_v1 : FVec F S4x1x352768 .f32 := broadcastInDim S4x1x352768 ![] bcast_S_S4x1x352768 main_cst
  let main_v2 : IVec S4x1x352768 1 := cmpf .olt main_v0 main_v1
  let main_c : IVec S_ 1 := constantI S_ 1 1#1
  let main_v3 : IVec S_ 1 := (fun x v => Host.reduce IntOp.andi x v reducesTo_S4x1x352768_S_d0_1_2 h_S_) main_v2 main_c
  let main_v4 : FVec F S168x23013 .f32 := Host.absf main_arg1
  let main_cst_0 : FVec F S_ .f32 := constant S_ .f32 0x7F800000#32
  let main_v5 : FVec F S168x23013 .f32 := broadcastInDim S168x23013 ![] bcast_S_S168x23013 main_cst_0
  let main_v6 : IVec S168x23013 1 := cmpf .olt main_v4 main_v5
  let main_c_1 : IVec S_ 1 := constantI S_ 1 1#1
  let main_v7 : IVec S_ 1 := (fun x v => Host.reduce IntOp.andi x v reducesTo_S168x23013_S_d0_1 h_S_) main_v6 main_c_1
  let main_v8 : IVec S_ 1 := andi main_v3 main_v7
  let main_v9 : FVec F S168x23013 .f32 := Host.absf main_arg2
  let main_cst_2 : FVec F S_ .f32 := constant S_ .f32 0x7F800000#32
  let main_v10 : FVec F S168x23013 .f32 := broadcastInDim S168x23013 ![] bcast_S_S168x23013 main_cst_2
  let main_v11 : IVec S168x23013 1 := cmpf .olt main_v9 main_v10
  let main_c_3 : IVec S_ 1 := constantI S_ 1 1#1
  let main_v12 : IVec S_ 1 := (fun x v => Host.reduce IntOp.andi x v reducesTo_S168x23013_S_d0_1 h_S_) main_v11 main_c_3
  let main_v13 : IVec S_ 1 := andi main_v8 main_v12
  main_v13
-- ==== Kernel.lean ====
abbrev S4x1x352768 : Shape := ⟨3, ![4, 1, 352768]⟩
abbrev S168x23013 : Shape := ⟨2, ![168, 23013]⟩
abbrev S_ : Shape := ⟨0, ![]⟩
abbrev S4x1x378853 : Shape := ⟨3, ![4, 1, 378853]⟩
abbrev S4x696x168 : Shape := ⟨3, ![4, 696, 168]⟩
abbrev S1x1x378853 : Shape := ⟨3, ![1, 1, 378853]⟩
abbrev S1x24x168 : Shape := ⟨3, ![1, 24, 168]⟩
abbrev S24x23013 : Shape := ⟨2, ![24, 23013]⟩
abbrev S1x1x23013 : Shape := ⟨3, ![1, 1, 23013]⟩
abbrev S1x23013 : Shape := ⟨2, ![1, 23013]⟩
abbrev S2x23013 : Shape := ⟨2, ![2, 23013]⟩
abbrev S24x168 : Shape := ⟨2, ![24, 168]⟩
abbrev S4x689x168 : Shape := ⟨3, ![4, 689, 168]⟩
abbrev S4x1x689x168 : Shape := ⟨4, ![4, 1, 689, 168]⟩

abbrev nBuf : Space → Nat
  | .hbm => 11
  | .vmem => 6
  | .smem => 0
  | _ => 0

abbrev bufTy : (tb : Table) → Fin (tcTables nBuf tb) → BufTy
  | .hbm, ⟨0, _⟩ => ⟨S4x1x352768, .f32⟩
  | .hbm, ⟨1, _⟩ => ⟨S168x23013, .f32⟩
  | .hbm, ⟨2, _⟩ => ⟨S168x23013, .f32⟩
  | .hbm, ⟨3, _⟩ => ⟨S_, .i32⟩
  | .hbm, ⟨4, _⟩ => ⟨S_, .f32⟩
  | .hbm, ⟨5, _⟩ => ⟨S4x1x378853, .f32⟩
  | .hbm, ⟨6, _⟩ => ⟨S168x23013, .bf16⟩
  | .hbm, ⟨7, _⟩ => ⟨S168x23013, .bf16⟩
  | .hbm, ⟨8, _⟩ => ⟨S4x696x168, .f32⟩
  | .hbm, ⟨9, _⟩ => ⟨S4x689x168, .f32⟩
  | .hbm, ⟨10, _⟩ => ⟨S4x1x689x168, .f32⟩
  | .local _ .vmem, ⟨0, _⟩ => ⟨S1x1x378853, .f32⟩
  | .local _ .vmem, ⟨1, _⟩ => ⟨S168x23013, .bf16⟩
  | .local _ .vmem, ⟨2, _⟩ => ⟨S168x23013, .bf16⟩
  | .local _ .vmem, ⟨3, _⟩ => ⟨S1x24x168, .f32⟩
  | .local _ .vmem, ⟨4, _⟩ => ⟨S1x24x168, .f32⟩
  | .local _ .vmem, ⟨5, _⟩ => ⟨S24x23013, .bf16⟩
  | _, _ => ⟨S4x1x352768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨2, ![4, 29], ![false, false]⟩

def k0_mult1 (i : grid0.Coords) : BitVec 32 :=
  let arg1 : BitVec 32 := BitVec.ofNat 32 (i 1).val
  let c12288_i32 : BitVec 32 := 12288#32
  let v0 : BitVec 32 := Scalar.muli arg1 c12288_i32
  v0
def k0_mult2 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c0_i32 : BitVec 32 := 0#32
  let v2 : BitVec 32 := Scalar.addi v1 c0_i32
  v2
def k0_off1 (i : grid0.Coords) (c0_i32 : BitVec 32) : Fin 3 → Nat :=
  let c0 : Index := 0#32
  let c0_0 : Index := 0#32
  let arg1 : BitVec 32 := BitVec.ofNat 32 (i 1).val
  let c12288_i32 : BitVec 32 := 12288#32
  let v0 : BitVec 32 := Scalar.muli arg1 c12288_i32
  let v1 : BitVec 32 := v0
  let v2 : BitVec 32 := Scalar.addi v1 c0_i32
  let v3 : BitVec 32 := v2
  let v4 : Index := Scalar.indexCast v3
  ![0, 0, v4.toNat]
def k0_mult3 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c512_i32 : BitVec 32 := 512#32
  let v11 : BitVec 32 := Scalar.addi v1 c512_i32
  v11
def k0_mult4 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c1024_i32 : BitVec 32 := 1024#32
  let v20 : BitVec 32 := Scalar.addi v1 c1024_i32
  v20
def k0_mult5 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c1536_i32 : BitVec 32 := 1536#32
  let v29 : BitVec 32 := Scalar.addi v1 c1536_i32
  v29
def k0_mult6 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c2048_i32 : BitVec 32 := 2048#32
  let v38 : BitVec 32 := Scalar.addi v1 c2048_i32
  v38
def k0_mult7 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c2560_i32 : BitVec 32 := 2560#32
  let v47 : BitVec 32 := Scalar.addi v1 c2560_i32
  v47
def k0_mult8 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c3072_i32 : BitVec 32 := 3072#32
  let v56 : BitVec 32 := Scalar.addi v1 c3072_i32
  v56
def k0_mult9 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c3584_i32 : BitVec 32 := 3584#32
  let v65 : BitVec 32 := Scalar.addi v1 c3584_i32
  v65
def k0_mult10 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c4096_i32 : BitVec 32 := 4096#32
  let v74 : BitVec 32 := Scalar.addi v1 c4096_i32
  v74
def k0_mult11 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c4608_i32 : BitVec 32 := 4608#32
  let v83 : BitVec 32 := Scalar.addi v1 c4608_i32
  v83
def k0_mult12 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c5120_i32 : BitVec 32 := 5120#32
  let v92 : BitVec 32 := Scalar.addi v1 c5120_i32
  v92
def k0_mult13 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c5632_i32 : BitVec 32 := 5632#32
  let v101 : BitVec 32 := Scalar.addi v1 c5632_i32
  v101
def k0_mult14 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c6144_i32 : BitVec 32 := 6144#32
  let v110 : BitVec 32 := Scalar.addi v1 c6144_i32
  v110
def k0_mult15 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c6656_i32 : BitVec 32 := 6656#32
  let v119 : BitVec 32 := Scalar.addi v1 c6656_i32
  v119
def k0_mult16 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c7168_i32 : BitVec 32 := 7168#32
  let v128 : BitVec 32 := Scalar.addi v1 c7168_i32
  v128
def k0_mult17 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c7680_i32 : BitVec 32 := 7680#32
  let v137 : BitVec 32 := Scalar.addi v1 c7680_i32
  v137
def k0_mult18 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c8192_i32 : BitVec 32 := 8192#32
  let v146 : BitVec 32 := Scalar.addi v1 c8192_i32
  v146
def k0_mult19 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c8704_i32 : BitVec 32 := 8704#32
  let v155 : BitVec 32 := Scalar.addi v1 c8704_i32
  v155
def k0_mult20 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c9216_i32 : BitVec 32 := 9216#32
  let v164 : BitVec 32 := Scalar.addi v1 c9216_i32
  v164
def k0_mult21 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c9728_i32 : BitVec 32 := 9728#32
  let v173 : BitVec 32 := Scalar.addi v1 c9728_i32
  v173
def k0_mult22 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c10240_i32 : BitVec 32 := 10240#32
  let v182 : BitVec 32 := Scalar.addi v1 c10240_i32
  v182
def k0_mult23 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c10752_i32 : BitVec 32 := 10752#32
  let v191 : BitVec 32 := Scalar.addi v1 c10752_i32
  v191
def k0_mult24 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c11264_i32 : BitVec 32 := 11264#32
  let v200 : BitVec 32 := Scalar.addi v1 c11264_i32
  v200
def k0_mult25 (i : grid0.Coords) : BitVec 32 :=
  let arg1 : BitVec 32 := BitVec.ofNat 32 (i 1).val
  let c12288_i32 : BitVec 32 := 12288#32
  let v0 : BitVec 32 := Scalar.muli arg1 c12288_i32
  let v1 : BitVec 32 := v0
  let c11776_i32 : BitVec 32 := 11776#32
  let v209 : BitVec 32 := Scalar.addi v1 c11776_i32
  v209
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x1x378853 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S168x23013 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S168x23013 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x24x168 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S4x1x352768_S4x1x378853_000_000_2250135840 : S4x1x352768.Pads (![0, 0, 22501] : Fin 3 → Nat) ![0, 0, 3584] ![0, 0, 0] S4x1x378853
  h_S_ : 0 < S_.numel
  bitsLt_bf16_f32 : FTy.bits .bf16 < FTy.bits .f32
  h_S1x1x23013 : 0 < S1x1x23013.numel
  shapeCasts_S1x1x23013_S1x23013 : S1x1x23013.ShapeCasts S1x23013
  inb_S24x23013_S1x23013_0_0 : ∀ a, (![0, 0] : Fin 2 → Nat) a + S1x23013.size a ≤ S24x23013.size a
  h_S1x23013 : 0 < S1x23013.numel
  shapeCasts_S1x23013_S1x23013 : S1x23013.ShapeCasts S1x23013
  inb_S24x23013_S2x23013_0_0 : ∀ a, (![0, 0] : Fin 2 → Nat) a + S2x23013.size a ≤ S24x23013.size a
  h_S2x23013 : 0 < S2x23013.numel
  slices_S2x23013_S1x23013_0_0 : S2x23013.Slices ![0, 0] S1x23013
  packedbf16_S24x23013_S2x23013_0_0 : (Rect.unit (s := S24x23013) ![0, 0] S2x23013.size inb_S24x23013_S2x23013_0_0).PackedRows (EltTy.packing .bf16)
  inb_S24x23013_S1x23013_1_0 : ∀ a, (![1, 0] : Fin 2 → Nat) a + S1x23013.size a ≤ S24x23013.size a
  slices_S2x23013_S1x23013_1_0 : S2x23013.Slices ![1, 0] S1x23013
  inb_S24x23013_S1x23013_2_0 : ∀ a, (![2, 0] : Fin 2 → Nat) a + S1x23013.size a ≤ S24x23013.size a
  inb_S24x23013_S2x23013_2_0 : ∀ a, (![2, 0] : Fin 2 → Nat) a + S2x23013.size a ≤ S24x23013.size a
  packedbf16_S24x23013_S2x23013_2_0 : (Rect.unit (s := S24x23013) ![2, 0] S2x23013.size inb_S24x23013_S2x23013_2_0).PackedRows (EltTy.packing .bf16)
  inb_S24x23013_S1x23013_3_0 : ∀ a, (![3, 0] : Fin 2 → Nat) a + S1x23013.size a ≤ S24x23013.size a
  inb_S24x23013_S1x23013_4_0 : ∀ a, (![4, 0] : Fin 2 → Nat) a + S1x23013.size a ≤ S24x23013.size a
  inb_S24x23013_S2x23013_4_0 : ∀ a, (![4, 0] : Fin 2 → Nat) a + S2x23013.size a ≤ S24x23013.size a
  packedbf16_S24x23013_S2x23013_4_0 : (Rect.unit (s := S24x23013) ![4, 0] S2x23013.size inb_S24x23013_S2x23013_4_0).PackedRows (EltTy.packing .bf16)
  inb_S24x23013_S1x23013_5_0 : ∀ a, (![5, 0] : Fin 2 → Nat) a + S1x23013.size a ≤ S24x23013.size a
  inb_S24x23013_S1x23013_6_0 : ∀ a, (![6, 0] : Fin 2 → Nat) a + S1x23013.size a ≤ S24x23013.size a
  inb_S24x23013_S2x23013_6_0 : ∀ a, (![6, 0] : Fin 2 → Nat) a + S2x23013.size a ≤ S24x23013.size a
  packedbf16_S24x23013_S2x23013_6_0 : (Rect.unit (s := S24x23013) ![6, 0] S2x23013.size inb_S24x23013_S2x23013_6_0).PackedRows (EltTy.packing .bf16)
  inb_S24x23013_S1x23013_7_0 : ∀ a, (![7, 0] : Fin 2 → Nat) a + S1x23013.size a ≤ S24x23013.size a
  inb_S24x23013_S1x23013_8_0 : ∀ a, (![8, 0] : Fin 2 → Nat) a + S1x23013.size a ≤ S24x23013.size a
  inb_S24x23013_S2x23013_8_0 : ∀ a, (![8, 0] : Fin 2 → Nat) a + S2x23013.size a ≤ S24x23013.size a
  packedbf16_S24x23013_S2x23013_8_0 : (Rect.unit (s := S24x23013) ![8, 0] S2x23013.size inb_S24x23013_S2x23013_8_0).PackedRows (EltTy.packing .bf16)
  inb_S24x23013_S1x23013_9_0 : ∀ a, (![9, 0] : Fin 2 → Nat) a + S1x23013.size a ≤ S24x23013.size a
  inb_S24x23013_S1x23013_10_0 : ∀ a, (![10, 0] : Fin 2 → Nat) a + S1x23013.size a ≤ S24x23013.size a
  inb_S24x23013_S2x23013_10_0 : ∀ a, (![10, 0] : Fin 2 → Nat) a + S2x23013.size a ≤ S24x23013.size a
  packedbf16_S24x23013_S2x23013_10_0 : (Rect.unit (s := S24x23013) ![10, 0] S2x23013.size inb_S24x23013_S2x23013_10_0).PackedRows (EltTy.packing .bf16)
  inb_S24x23013_S1x23013_11_0 : ∀ a, (![11, 0] : Fin 2 → Nat) a + S1x23013.size a ≤ S24x23013.size a
  inb_S24x23013_S1x23013_12_0 : ∀ a, (![12, 0] : Fin 2 → Nat) a + S1x23013.size a ≤ S24x23013.size a
  inb_S24x23013_S2x23013_12_0 : ∀ a, (![12, 0] : Fin 2 → Nat) a + S2x23013.size a ≤ S24x23013.size a
  packedbf16_S24x23013_S2x23013_12_0 : (Rect.unit (s := S24x23013) ![12, 0] S2x23013.size inb_S24x23013_S2x23013_12_0).PackedRows (EltTy.packing .bf16)
  inb_S24x23013_S1x23013_13_0 : ∀ a, (![13, 0] : Fin 2 → Nat) a + S1x23013.size a ≤ S24x23013.size a
  inb_S24x23013_S1x23013_14_0 : ∀ a, (![14, 0] : Fin 2 → Nat) a + S1x23013.size a ≤ S24x23013.size a
  inb_S24x23013_S2x23013_14_0 : ∀ a, (![14, 0] : Fin 2 → Nat) a + S2x23013.size a ≤ S24x23013.size a
  packedbf16_S24x23013_S2x23013_14_0 : (Rect.unit (s := S24x23013) ![14, 0] S2x23013.size inb_S24x23013_S2x23013_14_0).PackedRows (EltTy.packing .bf16)
  inb_S24x23013_S1x23013_15_0 : ∀ a, (![15, 0] : Fin 2 → Nat) a + S1x23013.size a ≤ S24x23013.size a
  inb_S24x23013_S1x23013_16_0 : ∀ a, (![16, 0] : Fin 2 → Nat) a + S1x23013.size a ≤ S24x23013.size a
  inb_S24x23013_S2x23013_16_0 : ∀ a, (![16, 0] : Fin 2 → Nat) a + S2x23013.size a ≤ S24x23013.size a
  packedbf16_S24x23013_S2x23013_16_0 : (Rect.unit (s := S24x23013) ![16, 0] S2x23013.size inb_S24x23013_S2x23013_16_0).PackedRows (EltTy.packing .bf16)
  inb_S24x23013_S1x23013_17_0 : ∀ a, (![17, 0] : Fin 2 → Nat) a + S1x23013.size a ≤ S24x23013.size a
  inb_S24x23013_S1x23013_18_0 : ∀ a, (![18, 0] : Fin 2 → Nat) a + S1x23013.size a ≤ S24x23013.size a
  inb_S24x23013_S2x23013_18_0 : ∀ a, (![18, 0] : Fin 2 → Nat) a + S2x23013.size a ≤ S24x23013.size a
  packedbf16_S24x23013_S2x23013_18_0 : (Rect.unit (s := S24x23013) ![18, 0] S2x23013.size inb_S24x23013_S2x23013_18_0).PackedRows (EltTy.packing .bf16)
  inb_S24x23013_S1x23013_19_0 : ∀ a, (![19, 0] : Fin 2 → Nat) a + S1x23013.size a ≤ S24x23013.size a
  inb_S24x23013_S1x23013_20_0 : ∀ a, (![20, 0] : Fin 2 → Nat) a + S1x23013.size a ≤ S24x23013.size a
  inb_S24x23013_S2x23013_20_0 : ∀ a, (![20, 0] : Fin 2 → Nat) a + S2x23013.size a ≤ S24x23013.size a
  packedbf16_S24x23013_S2x23013_20_0 : (Rect.unit (s := S24x23013) ![20, 0] S2x23013.size inb_S24x23013_S2x23013_20_0).PackedRows (EltTy.packing .bf16)
  inb_S24x23013_S1x23013_21_0 : ∀ a, (![21, 0] : Fin 2 → Nat) a + S1x23013.size a ≤ S24x23013.size a
  inb_S24x23013_S1x23013_22_0 : ∀ a, (![22, 0] : Fin 2 → Nat) a + S1x23013.size a ≤ S24x23013.size a
  inb_S24x23013_S2x23013_22_0 : ∀ a, (![22, 0] : Fin 2 → Nat) a + S2x23013.size a ≤ S24x23013.size a
  packedbf16_S24x23013_S2x23013_22_0 : (Rect.unit (s := S24x23013) ![22, 0] S2x23013.size inb_S24x23013_S2x23013_22_0).PackedRows (EltTy.packing .bf16)
  inb_S24x23013_S1x23013_23_0 : ∀ a, (![23, 0] : Fin 2 → Nat) a + S1x23013.size a ≤ S24x23013.size a
  inb_S24x23013_S24x23013_0_0 : ∀ a, (![0, 0] : Fin 2 → Nat) a + S24x23013.size a ≤ S24x23013.size a
  h_S24x23013 : 0 < S24x23013.numel
  inb_S168x23013_S168x23013_0_0 : ∀ a, (![0, 0] : Fin 2 → Nat) a + S168x23013.size a ≤ S168x23013.size a
  h_S168x23013 : 0 < S168x23013.numel
  shapeCasts_S168x23013_S168x23013 : S168x23013.ShapeCasts S168x23013
  inb_S1x24x168_S1x24x168_0_0_0 : ∀ a, (![0, 0, 0] : Fin 3 → Nat) a + S1x24x168.size a ≤ S1x24x168.size a
  h_S1x24x168 : 0 < S1x24x168.numel
  shapeCasts_S1x24x168_S24x168 : S1x24x168.ShapeCasts S24x168
  shapeCasts_S24x168_S1x24x168 : S24x168.ShapeCasts S1x24x168
  slices_S4x696x168_S4x689x168_0_0_0 : S4x696x168.Slices ![0, 0, 0] S4x689x168
  bcast_S4x689x168_S4x1x689x168_0_2_3 : S4x689x168.BroadcastsInDim S4x1x689x168 (![0, 2, 3] : Fin 3 → Fin S4x1x689x168.rank)
  dot_S24x23013_S168x23013_S24x168_1_1_0_0_n_n_wf : DotDims.WF S24x23013 S168x23013 S24x168 [1] [1] [0] [0] [] []
  hrank0 : 0 < grid0.rank
  k0_mult1_dvd : ∀ i : grid0.Coords, 128 ∣ (k0_mult1 i).toNat
  k0_mult2_dvd : ∀ i : grid0.Coords, 128 ∣ (k0_mult2 i).toNat
  k0_off1_inb : ∀ i : grid0.Coords, ∀ (r : Fin 24), ∀ a, (k0_off1 i (BitVec.ofNat 32 (512 * r.val))) a + S1x1x23013.size a ≤ S1x1x378853.size a
  k0_mult3_dvd : ∀ i : grid0.Coords, 128 ∣ (k0_mult3 i).toNat
  k0_mult4_dvd : ∀ i : grid0.Coords, 128 ∣ (k0_mult4 i).toNat
  k0_mult5_dvd : ∀ i : grid0.Coords, 128 ∣ (k0_mult5 i).toNat
  k0_mult6_dvd : ∀ i : grid0.Coords, 128 ∣ (k0_mult6 i).toNat
  k0_mult7_dvd : ∀ i : grid0.Coords, 128 ∣ (k0_mult7 i).toNat
  k0_mult8_dvd : ∀ i : grid0.Coords, 128 ∣ (k0_mult8 i).toNat
  k0_mult9_dvd : ∀ i : grid0.Coords, 128 ∣ (k0_mult9 i).toNat
  k0_mult10_dvd : ∀ i : grid0.Coords, 128 ∣ (k0_mult10 i).toNat
  k0_mult11_dvd : ∀ i : grid0.Coords, 128 ∣ (k0_mult11 i).toNat
  k0_mult12_dvd : ∀ i : grid0.Coords, 128 ∣ (k0_mult12 i).toNat
  k0_mult13_dvd : ∀ i : grid0.Coords, 128 ∣ (k0_mult13 i).toNat
  k0_mult14_dvd : ∀ i : grid0.Coords, 128 ∣ (k0_mult14 i).toNat
  k0_mult15_dvd : ∀ i : grid0.Coords, 128 ∣ (k0_mult15 i).toNat
  k0_mult16_dvd : ∀ i : grid0.Coords, 128 ∣ (k0_mult16 i).toNat
  k0_mult17_dvd : ∀ i : grid0.Coords, 128 ∣ (k0_mult17 i).toNat
  k0_mult18_dvd : ∀ i : grid0.Coords, 128 ∣ (k0_mult18 i).toNat
  k0_mult19_dvd : ∀ i : grid0.Coords, 128 ∣ (k0_mult19 i).toNat
  k0_mult20_dvd : ∀ i : grid0.Coords, 128 ∣ (k0_mult20 i).toNat
  k0_mult21_dvd : ∀ i : grid0.Coords, 128 ∣ (k0_mult21 i).toNat
  k0_mult22_dvd : ∀ i : grid0.Coords, 128 ∣ (k0_mult22 i).toNat
  k0_mult23_dvd : ∀ i : grid0.Coords, 128 ∣ (k0_mult23 i).toNat
  k0_mult24_dvd : ∀ i : grid0.Coords, 128 ∣ (k0_mult24 i).toNat
  k0_mult25_dvd : ∀ i : grid0.Coords, 128 ∣ (k0_mult25 i).toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1x378853.size a ≤ S4x1x378853.size a
  hwx0_0 : ∀ i : grid0.Coords, EltTy.bits .f32 = 32 ∨ (Rect.block (s := S4x1x378853) S1x1x378853.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S168x23013.size a ≤ S168x23013.size a
  hwx0_1 : ∀ i : grid0.Coords, EltTy.bits .bf16 = 32 ∨ (Rect.block (s := S168x23013) S168x23013.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S168x23013.size a ≤ S168x23013.size a
  hwx0_2 : ∀ i : grid0.Coords, EltTy.bits .bf16 = 32 ∨ (Rect.block (s := S168x23013) S168x23013.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x24x168.size a ≤ S4x696x168.size a
  hwx0_3 : ∀ i : grid0.Coords, EltTy.bits .f32 = 32 ∨ (Rect.block (s := S4x696x168) S1x24x168.size (cc0_transform_3 i) (hinb0_3 i)).WholeWords (EltTy.packing .f32)

variable [Facts₀]

def dot_S24x23013_S168x23013_S24x168_1_1_0_0_n_n : DotDims S24x23013 S168x23013 S24x168 where
  lhsContracting := [1]
  rhsContracting := [1]
  lhsNonContracting := [0]
  rhsNonContracting := [0]
  lhsBatch := []
  rhsBatch := []
  wf := dot_S24x23013_S168x23013_S24x168_1_1_0_0_n_n_wf

abbrev win0_0 : Pipeline.Window sig grid0 :=
  Pipeline.Window.ofSpec (Memref.whole main_v0) S1x1x378853.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S168x23013.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S168x23013.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x24x168.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1x352768 : Shape := ⟨3, ![4, 1, 352768]⟩
abbrev S168x23013 : Shape := ⟨2, ![168, 23013]⟩
abbrev S_ : Shape := ⟨0, ![]⟩
abbrev S4x1x375269 : Shape := ⟨3, ![4, 1, 375269]⟩
abbrev S689 : Shape := ⟨1, ![689]⟩
abbrev S689x1 : Shape := ⟨2, ![689, 1]⟩
abbrev S23013 : Shape := ⟨1, ![23013]⟩
abbrev S1x23013 : Shape := ⟨2, ![1, 23013]⟩
abbrev S689x23013 : Shape := ⟨2, ![689, 23013]⟩
abbrev S689x23013x1 : Shape := ⟨3, ![689, 23013, 1]⟩
abbrev S4x1x689x23013 : Shape := ⟨4, ![4, 1, 689, 23013]⟩
abbrev S4x1x689x168 : Shape := ⟨4, ![4, 1, 689, 168]⟩

abbrev nBuf : Space → Nat
  | .hbm => 31
  | .vmem => 0
  | .smem => 0
  | _ => 0

abbrev bufTy : (tb : Table) → Fin (tcTables nBuf tb) → BufTy
  | .hbm, ⟨0, _⟩ => ⟨S4x1x352768, .f32⟩
  | .hbm, ⟨1, _⟩ => ⟨S168x23013, .f32⟩
  | .hbm, ⟨2, _⟩ => ⟨S168x23013, .f32⟩
  | .hbm, ⟨3, _⟩ => ⟨S_, .i32⟩
  | .hbm, ⟨4, _⟩ => ⟨S_, .f32⟩
  | .hbm, ⟨5, _⟩ => ⟨S4x1x375269, .f32⟩
  | .hbm, ⟨6, _⟩ => ⟨S689, .i32⟩
  | .hbm, ⟨7, _⟩ => ⟨S689x1, .i32⟩
  | .hbm, ⟨8, _⟩ => ⟨S_, .i32⟩
  | .hbm, ⟨9, _⟩ => ⟨S689x1, .i32⟩
  | .hbm, ⟨10, _⟩ => ⟨S689x1, .i32⟩
  | .hbm, ⟨11, _⟩ => ⟨S23013, .i32⟩
  | .hbm, ⟨12, _⟩ => ⟨S1x23013, .i32⟩
  | .hbm, ⟨13, _⟩ => ⟨S689x23013, .i32⟩
  | .hbm, ⟨14, _⟩ => ⟨S689x23013, .i32⟩
  | .hbm, ⟨15, _⟩ => ⟨S689x23013, .i32⟩
  | .hbm, ⟨16, _⟩ => ⟨S_, .i32⟩
  | .hbm, ⟨17, _⟩ => ⟨S689x23013, .i32⟩
  | .hbm, ⟨18, _⟩ => ⟨S689x23013, .i1⟩
  | .hbm, ⟨19, _⟩ => ⟨S_, .i32⟩
  | .hbm, ⟨20, _⟩ => ⟨S689x23013, .i32⟩
  | .hbm, ⟨21, _⟩ => ⟨S689x23013, .i32⟩
  | .hbm, ⟨22, _⟩ => ⟨S689x23013, .i32⟩
  | .hbm, ⟨23, _⟩ => ⟨S689x23013x1, .i32⟩
  | .hbm, ⟨24, _⟩ => ⟨S4x1x689x23013, .f32⟩
  | .hbm, ⟨25, _⟩ => ⟨S4x1x689x168, .f32⟩
  | .hbm, ⟨26, _⟩ => ⟨S4x1x689x168, .f32⟩
  | .hbm, ⟨27, _⟩ => ⟨S4x1x689x168, .f32⟩
  | .hbm, ⟨28, _⟩ => ⟨S4x1x689x168, .f32⟩
  | .hbm, ⟨29, _⟩ => ⟨S4x1x689x168, .f32⟩
  | .hbm, ⟨30, _⟩ => ⟨S4x1x689x168, .f32⟩
  | _, _ => ⟨S4x1x352768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  pads_S4x1x352768_S4x1x375269_000_000_2250100 : S4x1x352768.Pads (![0, 0, 22501] : Fin 3 → Nat) ![0, 0, 0] ![0, 0, 0] S4x1x375269
  h_S_ : 0 < S_.numel
  bcast_S689_S689x1_0 : S689.BroadcastsInDim S689x1 (![0] : Fin 1 → Fin S689x1.rank)
  bcast_S_S689x1 : S_.BroadcastsInDim S689x1 (![] : Fin 0 → Fin S689x1.rank)
  bcast_S23013_S1x23013_1 : S23013.BroadcastsInDim S1x23013 (![1] : Fin 1 → Fin S1x23013.rank)
  bcast_S689x1_S689x23013_0_1 : S689x1.BroadcastsInDim S689x23013 (![0, 1] : Fin 2 → Fin S689x23013.rank)
  bcast_S1x23013_S689x23013_0_1 : S1x23013.BroadcastsInDim S689x23013 (![0, 1] : Fin 2 → Fin S689x23013.rank)
  bcast_S_S689x23013 : S_.BroadcastsInDim S689x23013 (![] : Fin 0 → Fin S689x23013.rank)
  bcast_S689x23013_S689x23013x1_0_1 : S689x23013.BroadcastsInDim S689x23013x1 (![0, 1] : Fin 2 → Fin S689x23013x1.rank)
  gather_S4x1x375269_S689x23013x1_S4x1x689x23013_01_2_n_n_2_2_411_wf : GatherDims.WF S4x1x375269 S689x23013x1 S4x1x689x23013 [0, 1] [2] [] [2] [] 2 ![4, 1, 1]
  dot_S4x1x689x23013_S168x23013_S4x1x689x168_3_1_012_0_n_n_wf : DotDims.WF S4x1x689x23013 S168x23013 S4x1x689x168 [3] [1] [0, 1, 2] [0] [] []

variable [Facts₀]

def gather_S4x1x375269_S689x23013x1_S4x1x689x23013_01_2_n_n_2_2_411 : GatherDims S4x1x375269 S689x23013x1 S4x1x689x23013 where
  offsetDims := [0, 1]
  collapsedSliceDims := [2]
  operandBatchingDims := []
  startIndicesBatchingDims := []
  startIndexMap := [2]
  indexVectorDim := 2
  sliceSizes := ![4, 1, 1]
  wf := gather_S4x1x375269_S689x23013x1_S4x1x689x23013_01_2_n_n_2_2_411_wf
def dot_S4x1x689x23013_S168x23013_S4x1x689x168_3_1_012_0_n_n : DotDims S4x1x689x23013 S168x23013 S4x1x689x168 where
  lhsContracting := [3]
  rhsContracting := [1]
  lhsNonContracting := [0, 1, 2]
  rhsNonContracting := [0]
  lhsBatch := []
  rhsBatch := []
  wf := dot_S4x1x689x23013_S168x23013_S4x1x689x168_3_1_012_0_n_n_wf

class Facts : Prop extends Facts₀ where

variable [Facts]
-- ==== Proof.KernelIdealBodyRun.lean ====
import proofs.«140795_j13426067767882_2_alg».proof.Proof.Gen.KernelIdeal.Frame
import proofs.«140795_j13426067767882_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's run

The body fills the 24 rows of its scratch one after the other — row `r` with the 23013 entries of the signal
block that start at `12288 * t + 512 * r`, narrowed to the scratch's format — through read-modify-write stores of two
rows at a time, then loads the scratch whole and multiplies it with the two filter banks. Run from whole memrefs
whose contents are named, it ends with the output's memref and the scratch each at a list of pieces written over
what they held; the lists are found by the run. -/

set_option maxHeartbeats 4000000 in
noncomputable def bodyRun (c : Dev nD) (i : grid0.Coords)
    (arg2 : Memref sig .tc .vmem S1x1x378853 .f32) (harg2 : arg2.IsWhole)
    (arg3 : Memref sig .tc .vmem S168x23013 .bf16) (harg3 : arg3.IsWhole)
    (arg4 : Memref sig .tc .vmem S168x23013 .bf16) (harg4 : arg4.IsWhole)
    (arg5 : Memref sig .tc .vmem S1x24x168 .f32) (harg5 : arg5.IsWhole)
    (arg6 : Memref sig .tc .vmem S24x23013 .bf16) (harg6 : arg6.IsWhole)
    (x0 : Vec F S1x1x378853 .f32) (x1 : Vec F S168x23013 .bf16) (x2 : Vec F S168x23013 .bf16)
    (fs : BufTy.Contents (Elt F) arg6.view.ty) :
    Σ' (L3 : List (View.Piece (Elt F) S1x24x168 .f32)), { LS : List (View.Piece (Elt F) S24x23013 .bf16) //
      ∀ (f3 : BufTy.Contents (Elt F) arg5.view.ty) (E : Set ℕ) (K : PUnit → sProp 𝕄),
        iprop(owns (c : Thread nD τ) arg2 fullShare x0 ∗ owns (c : Thread nD τ) arg3 fullShare x1 ∗ owns (c : Thread nD τ) arg4 fullShare x2
            ∗ (arg5.view.loc (c : Thread nD τ) ↦[arg5.view.set]{fullShare} f3)
            ∗ (arg6.view.loc (c : Thread nD τ) ↦[arg6.view.set]{fullShare} fs)
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) f3 L3)
                ∗ (arg6.view.loc (c : Thread nD τ) ↦[arg6.view.set]{fullShare} arg6.view.writes (Elt F) fs LS)) -∗ K ⟨⟩))
          ⊢ wp frame (wpE (defs₀ (F := F)) Variants.none c none) E (cc0__cqt_kernel i arg2 harg2 arg3 harg3 arg4 harg4 arg5 harg5 arg6 harg6) K } := by
  refine ⟨?_, ?_, fun f3 E K => ?run⟩
  case run =>
    simp only [cc0__cqt_kernel_eq_skeleton]; unfold cc0__cqt_kernel_skel
    unfold owns
    iintro ⟨⟨%f0, %hf0, H0⟩, ⟨%f1, %hf1, H1⟩, ⟨%f2, %hf2, H2⟩, H3, HS, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    iexact HS

end Cert.KernelIdeal.Body

end
-- ==== Proof.LibRowPairs.lean ====
import Idealize.ShloMosaic.Lib.WritesUnit
import Idealize.ShloMosaic.Lib.Exec.Geometry
import Idealize.ShloMosaic.Lib.Pipeline.FrameBody
import Idealize.ShloMosaic.Lib.ValueIdx

/-!
  A rank-2 buffer filled two rows at a time by read-modify-write stores.

  A store of ONE row into a buffer whose words hold two rows each is a load of the two-row block, the replacement
  of one of its rows, and a store of the block. Two such stores into the same block, the first replacing row 0 of
  what the buffer held, the second replacing row 1 of what the first left, leave the block at the two new rows,
  whatever the buffer held before: nothing of the earlier contents survives in those two rows.
-/

noncomputable section

namespace Cert.LibRowPairs

open Idealize.ShloMosaic Idealize.ShloMosaic.ValueIdx

variable {α : Type} {C : ℕ}

/-- Replacing row 0 of a two-row block: row 0 is the new row. -/
theorem updateSlice_row0_at0 (old : (⟨2, ![2, C]⟩ : Shape).Idx → α) (p : (⟨2, ![1, C]⟩ : Shape).Idx → α)
    (h : (⟨2, ![2, C]⟩ : Shape).Slices ![0, 0] (⟨2, ![1, C]⟩ : Shape)) (n : Fin C) :
    updateSlice old p ![0, 0] h (ix2 (0 : Fin 2) n) = p (ix2 (0 : Fin 1) n) := by
  unfold updateSlice
  rw [dif_pos (by
    intro a
    match a with
    | ⟨0, _⟩ => exact ⟨Nat.le_refl _, Nat.zero_lt_one⟩
    | ⟨1, _⟩ => exact ⟨Nat.zero_le _, by show n.val < 0 + C; omega⟩)]
  congr 1
  funext b
  match b with
  | ⟨0, _⟩ => rfl
  | ⟨1, _⟩ => rfl

/-- Replacing row 0 of a two-row block: row 1 is kept. -/
theorem updateSlice_row0_at1 (old : (⟨2, ![2, C]⟩ : Shape).Idx → α) (p : (⟨2, ![1, C]⟩ : Shape).Idx → α)
    (h : (⟨2, ![2, C]⟩ : Shape).Slices ![0, 0] (⟨2, ![1, C]⟩ : Shape)) (n : Fin C) :
    updateSlice old p ![0, 0] h (ix2 (1 : Fin 2) n) = old (ix2 (1 : Fin 2) n) := by
  unfold updateSlice
  rw [dif_neg (by
    intro hin
    have := (hin (0 : Fin 2)).2
    revert this
    show ¬ ((1 : ℕ) < 0 + 1)
    omega)]

/-- Replacing row 1 of a two-row block: row 1 is the new row. -/
theorem updateSlice_row1_at1 (old : (⟨2, ![2, C]⟩ : Shape).Idx → α) (p : (⟨2, ![1, C]⟩ : Shape).Idx → α)
    (h : (⟨2, ![2, C]⟩ : Shape).Slices ![1, 0] (⟨2, ![1, C]⟩ : Shape)) (n : Fin C) :
    updateSlice old p ![1, 0] h (ix2 (1 : Fin 2) n) = p (ix2 (0 : Fin 1) n) := by
  unfold updateSlice
  rw [dif_pos (by
    intro a
    match a with
    | ⟨0, _⟩ => exact ⟨Nat.le_refl _, by show (1 : ℕ) < 1 + 1; omega⟩
    | ⟨1, _⟩ => exact ⟨Nat.zero_le _, by show n.val < 0 + C; omega⟩)]
  congr 1
  funext b
  match b with
  | ⟨0, _⟩ => rfl
  | ⟨1, _⟩ => rfl

/-- Replacing row 1 of a two-row block: row 0 is kept. -/
theorem updateSlice_row1_at0 (old : (⟨2, ![2, C]⟩ : Shape).Idx → α) (p : (⟨2, ![1, C]⟩ : Shape).Idx → α)
    (h : (⟨2, ![2, C]⟩ : Shape).Slices ![1, 0] (⟨2, ![1, C]⟩ : Shape)) (n : Fin C) :
    updateSlice old p ![1, 0] h (ix2 (0 : Fin 2) n) = old (ix2 (0 : Fin 2) n) := by
  unfold updateSlice
  rw [dif_neg (by
    intro hin
    have := (hin (0 : Fin 2)).1
    revert this
    show ¬ ((1 : ℕ) ≤ 0)
    omega)]

section Pair

variable {sig : RefSig} {κ : Kind} {sp : Space} {e : EltTy} {Val : EltTy → Type} [∀ e, Nonempty (Val e)] {N : ℕ}

/-- Two read-modify-write stores into the two-row block at rows `o`, `o + 1` of an `N`-row buffer — the first
    replaces row 0 of what the buffer held there by `pa`, the second replaces row 1 of what the first left by `pb` —
    read back at row `r`, column `n`: `pa` at row `o`, `pb` at row `o + 1`, and at every other row what the
    earlier stores `L` left. The buffer's earlier contents `old` in those two rows are gone. -/
theorem read_pair (v : View sig κ sp (⟨2, ![N, C]⟩ : Shape) e) (f : v.ty.Contents Val) (o : ℕ)
    (inb : ∀ a : Fin 2, (![o, 0] : Fin 2 → ℕ) a + (![2, C] : Fin 2 → ℕ) a ≤ (![N, C] : Fin 2 → ℕ) a)
    (h0 : (⟨2, ![2, C]⟩ : Shape).Slices ![0, 0] (⟨2, ![1, C]⟩ : Shape))
    (h1 : (⟨2, ![2, C]⟩ : Shape).Slices ![1, 0] (⟨2, ![1, C]⟩ : Shape))
    (old : (⟨2, ![2, C]⟩ : Shape).Idx → Val e) (pa pb : (⟨2, ![1, C]⟩ : Shape).Idx → Val e)
    (L : List (View.Piece Val (⟨2, ![N, C]⟩ : Shape) e)) (r : Fin N) (n : Fin C) :
    v.read Val (v.writes Val f
      ((⟨Rect.unit (s := ⟨2, ![N, C]⟩) ![o, 0] ![2, C] inb,
          updateSlice (v.readCov ((⟨Rect.unit (s := ⟨2, ![N, C]⟩) ![o, 0] ![2, C] inb, updateSlice old pa ![0, 0] h0⟩ : View.Piece Val (⟨2, ![N, C]⟩ : Shape) e) :: L)
            (Rect.unit (s := ⟨2, ![N, C]⟩) ![o, 0] ![2, C] inb).toLoadRect) pb ![1, 0] h1⟩ : View.Piece Val (⟨2, ![N, C]⟩ : Shape) e)
        :: (⟨Rect.unit (s := ⟨2, ![N, C]⟩) ![o, 0] ![2, C] inb, updateSlice old pa ![0, 0] h0⟩ : View.Piece Val (⟨2, ![N, C]⟩ : Shape) e) :: L)) (ix2 r n)
    = if r.val = o then pa (ix2 (0 : Fin 1) n) else if r.val = o + 1 then pb (ix2 (0 : Fin 1) n)
      else v.read Val (v.writes Val f L) (ix2 r n) := by
  by_cases hr0 : r.val = o
  · rw [if_pos hr0]
    rw [View.read_writes_cons_rows_of_mem v f inb _ _ (ix2 r n) (ix2 (0 : Fin 2) n) rfl (by show r.val = o + 0; omega) rfl]
    rw [updateSlice_row1_at0, View.readCov_cons_toLoadRect, updateSlice_row0_at0]
  · rw [if_neg hr0]
    by_cases hr1 : r.val = o + 1
    · rw [if_pos hr1]
      rw [View.read_writes_cons_rows_of_mem v f inb _ _ (ix2 r n) (ix2 (1 : Fin 2) n) rfl (by show r.val = o + 1; omega) rfl]
      rw [updateSlice_row1_at1]
    · rw [if_neg hr1]
      rw [View.read_writes_cons_rows_of_not_mem v f inb _ _ (ix2 r n) rfl (W := 2) rfl (by show r.val < o ∨ o + 2 ≤ r.val; omega)]
      rw [View.read_writes_cons_rows_of_not_mem v f inb _ _ (ix2 r n) rfl (W := 2) rfl (by show r.val < o ∨ o + 2 ≤ r.val; omega)]

end Pair

end Cert.LibRowPairs

end
-- ==== Proof.KernelIdealFrames.lean ====
import proofs.«140795_j13426067767882_2_alg».proof.Proof.Gen.KernelIdeal.Frame
import proofs.«140795_j13426067767882_2_alg».proof.Proof.Gen.KernelIdeal.Skeleton
import proofs.«140795_j13426067767882_2_alg».proof.Proof.KernelIdealBodyRun
import proofs.«140795_j13426067767882_2_alg».proof.Proof.LibRowPairs
import Idealize.ShloMosaic.Lib.Pipeline.Value
import Idealize.ShloMosaic.Lib.ValueIdx
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

/-! ## The frames the body builds in its scratch

Row `r` of the scratch ends at the 23013 entries of the signal block that start at entry
`12288 * t + 512 * r` (`t` the point's second coordinate), narrowed to the scratch's format; the 24 rows together are
the frames of the point. Whatever the scratch held before the point is gone: each two-row word is written twice, and
the two stores together replace both rows. -/

/-- Row `r` of the frames at a point with coordinates `i`, from the signal block `x0`. -/
def frameRow (i : grid0.Coords) (x0 : Vec F S1x1x378853 .f32) (r : Fin 24) : FVec F S1x23013 .bf16 :=
  k0_pay3 (View.ld x0 (Rect.unit (s := S1x1x378853) (k0_off1 i (BitVec.ofNat 32 (512 * r.val))) S1x1x23013.size (Gen.k0_off1_inb i r)))

/-- The 24 frames of a point, as one array. -/
def frames (i : grid0.Coords) (x0 : Vec F S1x1x378853 .f32) : Vec F S24x23013 .bf16 :=
  fun y => frameRow i x0 ⟨(y 0).val, (y 0).isLt⟩ (ix2 (0 : Fin 1) ⟨(y 1).val, (y 1).isLt⟩)

theorem zero2 : (![0, 0] : Fin 2 → ℕ) = fun _ => 0 := by
  funext a; match a with | ⟨0, _⟩ => rfl | ⟨1, _⟩ => rfl

set_option maxHeartbeats 4000000 in
/-- What the body's whole-scratch load reads, after its 24 stores, is the frames: nothing of the scratch's earlier
    contents `fs`. -/
theorem scratch_eq (c : Dev nD) (i : grid0.Coords)
    (arg2 : Memref sig .tc .vmem S1x1x378853 .f32) (harg2 : arg2.IsWhole)
    (arg6 : Memref sig .tc .vmem S24x23013 .bf16)
    (x0 : Vec F S1x1x378853 .f32) (fs : BufTy.Contents (Elt F) arg6.view.ty) :
    bodyRun.sl.v218 c i arg2 harg2 arg6 x0 fs = frames i x0 := by
  unfold bodyRun.sl.v218
  show View.ld (arg6.view.read (Elt F) (arg6.view.writes (Elt F) arg6.view.junk (bodyRun.sl.HS_24 c i arg2 harg2 arg6 x0 fs)))
    (Rect.unit (s := S24x23013) ![0, 0] S24x23013.size Gen.inb_S24x23013_S24x23013_0_0) = _
  rw [View.ld_unit_zero (S := S24x23013) zero2]
  funext y
  obtain ⟨r, n, rfl⟩ : ∃ (r : Fin 24) (n : Fin 23013), y = ix2 r n := ⟨y 0, y 1, eq_ix2 y⟩
  unfold bodyRun.sl.HS_24 bodyRun.sl.old_22 bodyRun.sl.HS_23
  dsimp only
  rw [Cert.LibRowPairs.read_pair arg6.view _ 22 _ _ _ _ _ _ _ r n]
  unfold bodyRun.sl.old_20 bodyRun.sl.HS_21
  dsimp only
  rw [Cert.LibRowPairs.read_pair arg6.view _ 20 _ _ _ _ _ _ _ r n]
  unfold bodyRun.sl.old_18 bodyRun.sl.HS_19
  dsimp only
  rw [Cert.LibRowPairs.read_pair arg6.view _ 18 _ _ _ _ _ _ _ r n]
  unfold bodyRun.sl.old_16 bodyRun.sl.HS_17
  dsimp only
  rw [Cert.LibRowPairs.read_pair arg6.view _ 16 _ _ _ _ _ _ _ r n]
  unfold bodyRun.sl.old_14 bodyRun.sl.HS_15
  dsimp only
  rw [Cert.LibRowPairs.read_pair arg6.view _ 14 _ _ _ _ _ _ _ r n]
  unfold bodyRun.sl.old_12 bodyRun.sl.HS_13
  dsimp only
  rw [Cert.LibRowPairs.read_pair arg6.view _ 12 _ _ _ _ _ _ _ r n]
  unfold bodyRun.sl.old_10 bodyRun.sl.HS_11
  dsimp only
  rw [Cert.LibRowPairs.read_pair arg6.view _ 10 _ _ _ _ _ _ _ r n]
  unfold bodyRun.sl.old_8 bodyRun.sl.HS_9
  dsimp only
  rw [Cert.LibRowPairs.read_pair arg6.view _ 8 _ _ _ _ _ _ _ r n]
  unfold bodyRun.sl.old_6 bodyRun.sl.HS_7
  dsimp only
  rw [Cert.LibRowPairs.read_pair arg6.view _ 6 _ _ _ _ _ _ _ r n]
  unfold bodyRun.sl.old_4 bodyRun.sl.HS_5
  dsimp only
  rw [Cert.LibRowPairs.read_pair arg6.view _ 4 _ _ _ _ _ _ _ r n]
  unfold bodyRun.sl.old_2 bodyRun.sl.HS_3
  dsimp only
  rw [Cert.LibRowPairs.read_pair arg6.view _ 2 _ _ _ _ _ _ _ r n]
  unfold bodyRun.sl.old bodyRun.sl.HS_1
  dsimp only
  rw [Cert.LibRowPairs.read_pair arg6.view _ 0 _ _ _ _ _ _ _ r n]
  unfold bodyRun.sl.r bodyRun.sl.r_1 bodyRun.sl.r_2 bodyRun.sl.r_3 bodyRun.sl.r_4 bodyRun.sl.r_5
  simp only [View.readAt_eq_ld, harg2.read_unread]
  obtain ⟨k, hk⟩ := r
  interval_cases k <;> (simp only [Fin.val_mk, Nat.reduceAdd, Nat.reduceEqDiff, reduceIte]; rfl)

/-- The output block of a point: the modulus of the two products of the point's frames with the filter banks. -/
def outBlk (i : grid0.Coords) (x0 : Vec F S1x1x378853 .f32) (x1 x2 : Vec F S168x23013 .bf16) : Vec F S1x24x168 .f32 :=
  k0_pay2 (frames i x0) x1 x2

theorem zero3 : (![0, 0, 0] : Fin 3 → ℕ) = fun _ => 0 := by
  funext a; match a with | ⟨0, _⟩ => rfl | ⟨1, _⟩ => rfl | ⟨2, _⟩ => rfl

/-- The body's one store into the output block is of `outBlk` of the input blocks, through the whole block. -/
theorem bodyRun_out (c : Dev nD) (i : grid0.Coords)
    (arg2 : Memref sig .tc .vmem S1x1x378853 .f32) (harg2 : arg2.IsWhole)
    (arg3 : Memref sig .tc .vmem S168x23013 .bf16) (harg3 : arg3.IsWhole)
    (arg4 : Memref sig .tc .vmem S168x23013 .bf16) (harg4 : arg4.IsWhole)
    (arg5 : Memref sig .tc .vmem S1x24x168 .f32) (harg5 : arg5.IsWhole)
    (arg6 : Memref sig .tc .vmem S24x23013 .bf16) (harg6 : arg6.IsWhole)
    (x0 : Vec F S1x1x378853 .f32) (x1 : Vec F S168x23013 .bf16) (x2 : Vec F S168x23013 .bf16)
    (fs : BufTy.Contents (Elt F) arg6.view.ty) :
    (bodyRun c i arg2 harg2 arg3 harg3 arg4 harg4 arg5 harg5 arg6 harg6 x0 x1 x2 fs).1
      = [⟨Rect.unit (s := S1x24x168) ![0, 0, 0] S1x24x168.size Gen.inb_S1x24x168_S1x24x168_0_0_0, outBlk i x0 x1 x2⟩] := by
  unfold bodyRun; dsimp only
  rw [scratch_eq]
  simp only [View.readAt_eq_ld, harg3.read_unread, harg4.read_unread, View.ld_unit_zero (S := S168x23013) zero2]
  rfl

end Cert.KernelIdeal.Body

end
-- ==== Proof.KernelIdealLaunch.lean ====
import proofs.«140795_j13426067767882_2_alg».proof.Proof.Gen.KernelIdeal.Frame
import proofs.«140795_j13426067767882_2_alg».proof.Proof.Gen.KernelIdeal.Skeleton
import proofs.«140795_j13426067767882_2_alg».proof.Proof.KernelIdealFrames
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any staging memrefs

From the three input blocks held whole at named contents, the output block and the scratch at anything, the body
runs to its end with the inputs as they were, the output block at `outBlk` of the inputs — the modulus of the two
products of the point's frames with the filter banks — and the scratch at something. -/

theorem sound_kernel (c : Dev nD) (E : Set ℕ) (i : grid0.Coords)
    (arg2 : Memref sig .tc .vmem S1x1x378853 .f32) (harg2 : arg2.IsWhole)
    (arg3 : Memref sig .tc .vmem S168x23013 .bf16) (harg3 : arg3.IsWhole)
    (arg4 : Memref sig .tc .vmem S168x23013 .bf16) (harg4 : arg4.IsWhole)
    (arg5 : Memref sig .tc .vmem S1x24x168 .f32) (harg5 : arg5.IsWhole)
    (arg6 : Memref sig .tc .vmem S24x23013 .bf16) (harg6 : arg6.IsWhole)
    (x0 : Vec F S1x1x378853 .f32) (x1 : Vec F S168x23013 .bf16) (x2 : Vec F S168x23013 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk i x0 x1 x2) ∗ (∃ d, owns (c : Thread nD τ) arg6 fullShare d)) -∗ K ⟨⟩))
      ⊢ wp frame (wpE (defs₀ (F := F)) Variants.none c none) E (cc0__cqt_kernel i arg2 harg2 arg3 harg3 arg4 harg4 arg5 harg5 arg6 harg6) K := by
  have hrun := fun fs f3 => (bodyRun c i arg2 harg2 arg3 harg3 arg4 harg4 arg5 harg5 arg6 harg6 x0 x1 x2 fs).2.2 f3 E K
  unfold owns at hrun ⊢
  iintro ⟨H0, H1, H2, ⟨%d3, %f3, -, H3⟩, ⟨%ds, %fs, -, HS⟩, Hk⟩
  iapply (hrun fs f3)
  isplitl [H0]; · iexact H0
  isplitl [H1]; · iexact H1
  isplitl [H2]; · iexact H2
  isplitl [H3]; · iexact H3
  isplitl [HS]; · iexact HS
  iintro ⟨H0, H1, H2, H3, HS⟩
  iapply Hk
  isplitl [H0]; · iexact H0
  isplitl [H1]; · iexact H1
  isplitl [H2]; · iexact H2
  isplitl [H3]
  · iexists _; isplitr
    swap; · iexact H3
    ipureintro
    rw [bodyRun_out, View.read_writes_eq_canon _ _ _ (fun y => ⟨_, List.mem_singleton_self _, View.mem_set_unit_zero zero3 Gen.inb_S1x24x168_S1x24x168_0_0_0 y⟩),
      View.canon_unit_zero zero3]
  iexists _, _; isplitr
  swap; · iexact HS
  ipureintro; rfl

/-! ## The pipeline's proof data -/

/-- The proof data of the pipeline on core `c`: the arrays as the region finds them; after the body at point `t`
    each input's buffer at its block and the output's at `outBlk` of the input blocks; the invariant the scratch and
    the generator register at something; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The scratch operand: a whole scoped buffer of the kernel's own. -/
abbrev scM : Memref sig .tc .vmem S24x23013 .bf16 := Memref.whole cc0_scratch0

/-- The invariant, with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hg]
  · isplitl [HS]; · iexact HS
    iexact Hg
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.LibDotT.lean ====
/- A matrix product against a transposed right operand, [R, K] × [C, K] → [R, C] (both operands contracted along their second
   axis), into a zero accumulator, read at an index over the extended reals: entry (p, q) is the sum over k of
   lhs(p, k) · rhs(q, k). For any dimension record with these lists. Names no program. -/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

namespace Cert.LibDotT

open Idealize.ShloMosaic Idealize.ShloMosaic.ValueIdx

/-- The dimension numbers of a `[R, K] × [C, K] → [R, C]` product: the second axis of each operand is contracted. -/
abbrev dotT (R K C : Nat)
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

section
variable {R K C : Nat} (wf : DotDims.WF ⟨2, ![R, K]⟩ ⟨2, ![C, K]⟩ ⟨2, ![R, C]⟩ [1] [1] [0] [0] [] [])

/-- The left operand's index for output `(p, q)` and contraction coordinate `k` is `(p, k)`. -/
theorem dotT_lhsIdx (p : Fin R) (q : Fin C) (k : Fin K) :
    (dotT R K C wf).lhsIdx (ix2 p q) ((contrEquiv1 (dotT R K C wf) K rfl rfl).symm k) = ix2 p k := by
  have hk := contrEquiv1_symm_val (dotT R K C wf) K rfl rfl k
  funext a
  refine Fin.ext ?_
  match a with
  | ⟨0, _⟩ =>
    show ((dotT R K C wf).lhsIdx (ix2 p q) ((contrEquiv1 (dotT R K C wf) K rfl rfl).symm k) 0).val = p.val
    unfold DotDims.lhsIdx
    rw [dif_neg (show ¬(0 : Fin 2) ∈ (dotT R K C wf).lhsBatch from List.not_mem_nil),
      dif_pos (show (0 : Fin 2) ∈ (dotT R K C wf).lhsNonContracting from List.mem_singleton.mpr rfl)]
    rfl
  | ⟨1, _⟩ =>
    exact ((dotT R K C wf).lhsIdx_val_of_single (cl := (1 : Fin 2)) rfl (ix2 p q) _).trans hk

/-- The right operand's index for output `(p, q)` and contraction coordinate `k` is `(q, k)`. -/
theorem dotT_rhsIdx (p : Fin R) (q : Fin C) (k : Fin K) :
    (dotT R K C wf).rhsIdx (ix2 p q) ((contrEquiv1 (dotT R K C wf) K rfl rfl).symm k) = ix2 q k := by
  have hk := contrEquiv1_symm_val (dotT R K C wf) K rfl rfl k
  funext a
  refine Fin.ext ?_
  match a with
  | ⟨0, _⟩ =>
    show ((dotT R K C wf).rhsIdx (ix2 p q) ((contrEquiv1 (dotT R K C wf) K rfl rfl).symm k) 0).val = q.val
    unfold DotDims.rhsIdx
    rw [dif_neg (show ¬(0 : Fin 2) ∈ (dotT R K C wf).rhsBatch from List.not_mem_nil),
      dif_pos (show (0 : Fin 2) ∈ (dotT R K C wf).rhsNonContracting from List.mem_singleton.mpr rfl)]
    rfl
  | ⟨1, _⟩ =>
    exact ((dotT R K C wf).rhsIdx_val_of_single (cr := (1 : Fin 2)) rfl (ix2 p q) _).trans hk

/-- THE PRODUCT AGAINST THE TRANSPOSE INTO A ZERO ACCUMULATOR AT `(p, q)`: the sum over `k` of `lhs (p, k) * rhs (q, k)`. -/
theorem matmulT_zero_apply {φ₁ φ₂ : FTy} (prec : Option ContractPrecision)
    (lhs : FVec Ideal ⟨2, ![R, K]⟩ φ₁) (rhs : FVec Ideal ⟨2, ![C, K]⟩ φ₂) (p : Fin R) (q : Fin C) :
    FloatOps.matmul (dotT R K C wf) prec lhs rhs (constant ⟨2, ![R, C]⟩ .f32 0x00000000#32) (ix2 p q)
      = ∑ k : Fin K, lhs (ix2 p k) * rhs (ix2 q k) := by
  rw [Ideal.matmul_constant_zero_apply, ← Equiv.sum_comp (contrEquiv1 (dotT R K C wf) K rfl rfl).symm]
  refine Finset.sum_congr rfl fun k _ => ?_
  rw [dotT_lhsIdx wf p q k, dotT_rhsIdx wf p q k]

end

end Cert.LibDotT

end
-- ==== Proof.Spec.lean ====
import Idealize.ShloMosaic.PureOps.Ideal
import Idealize.ShloMosaic.Lib.ValueIdx

/-!
  The common value of the two programs, index by index, over the extended reals.

  The signal `a` (four batches of 352768 samples) is extended on the left by 22501 copies of a pad value `pv`;
  frame `f` of batch `b` is the window of 23013 consecutive entries of the extended signal that starts at
  entry `512 * f`. Each of the 168 filters has a real and an imaginary row of 23013 taps; the response of filter
  `q` on a frame is the pair of plain sums of products of the frame with the two rows, and the result is the
  modulus `sqrt (re * re + im * im)` of that pair, for each of the 689 frames.
-/

noncomputable section

open scoped BigOperators

namespace Cert.Spec

open Idealize.ShloMosaic Idealize.ShloMosaic.ValueIdx

/-- The signal's shape, a filter bank's shape, the result's shape. -/
abbrev SA : Shape := ⟨3, ![4, 1, 352768]⟩
abbrev SK : Shape := ⟨2, ![168, 23013]⟩
abbrev SO : Shape := ⟨4, ![4, 1, 689, 168]⟩

/-- Entry `p` of batch `b` of the signal extended on the left by 22501 pad values (and, past its end, by pad values
    again): sample `p - 22501` where that is a sample, the pad value elsewhere. -/
def padded (a : SA.Idx → EReal) (pv : EReal) (b : Fin 4) (p : ℕ) : EReal :=
  if h : 22501 ≤ p ∧ p - 22501 < 352768 then a (ix3 b (0 : Fin 1) ⟨p - 22501, h.2⟩) else pv

/-- The plain sum of products of frame `f` of batch `b` with row `q` of a filter bank `k`. -/
def corr (a : SA.Idx → EReal) (pv : EReal) (k : SK.Idx → EReal) (b : Fin 4) (f : Fin 689) (q : Fin 168) : EReal :=
  ∑ n : Fin 23013, padded a pv b (512 * f.val + n.val) * k (ix2 q n)

/-- The result: the modulus of the complex response, per batch, frame and filter. -/
def G (a : SA.Idx → EReal) (kr ki : SK.Idx → EReal) (pv : EReal) : SO.Idx → EReal := fun j =>
  Ideal.sqrt (corr a pv kr (j 0) (j 2) (j 3) * corr a pv kr (j 0) (j 2) (j 3)
    + corr a pv ki (j 0) (j 2) (j 3) * corr a pv ki (j 0) (j 2) (j 3))

end Cert.Spec

end
-- ==== Proof.KernelIdealValue.lean ====
import proofs.«140795_j13426067767882_2_alg».proof.Proof.Gen.KernelIdeal.Frame
import proofs.«140795_j13426067767882_2_alg».proof.Proof.Gen.KernelIdeal.Skeleton
import proofs.«140795_j13426067767882_2_alg».proof.Proof.KernelIdealFrames
import proofs.«140795_j13426067767882_2_alg».proof.Proof.LibDotT
import proofs.«140795_j13426067767882_2_alg».proof.Proof.Spec
import Idealize.ShloMosaic.Lib.Pipeline.Value
import Idealize.ShloMosaic.Lib.ValueLayout
import Idealize.ShloMosaic.Lib.ValueIdx
import Idealize.ShloMosaic.PureOps.Ideal.Laws
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable {F : FTy → Type} [FloatOps F]

local notation "𝕄" => MT nD τ sig Unit (Elt F) ℕ (UR sig nD τ) ℕ

/-! ## The output block of a point, entry by entry, over the extended reals

At the ideal instance a change of float format is the identity, so row `r` of the point's frames is the signal block
read from entry `12288 * t + 512 * r` on, and the output block's entry `(r, q)` is the modulus of the two plain sums of
products of that row with rows `q` of the two filter banks. -/

/-- Entry `(r, n)` of the frames is entry `12288 * t + 512 * r + n` of the signal block. -/
theorem frames_apply (i : grid0.Coords) (x0 : Vec Ideal S1x1x378853 .f32) (r : Fin 24) (n : Fin 23013)
    (hb : 12288 * (i 1).val + 512 * r.val + n.val < 378853) :
    frames (F := Ideal) i x0 (ix2 r n)
      = x0 (ix3 (0 : Fin 1) (0 : Fin 1) ⟨12288 * (i 1).val + 512 * r.val + n.val, hb⟩) := by
  show frameRow (F := Ideal) i x0 r (ix2 (0 : Fin 1) n) = _
  unfold frameRow k0_pay3
  rw [shapeCast_self]
  show shapeCast S1x23013 (View.ld x0 (Rect.unit (s := S1x1x378853) (k0_off1 i (BitVec.ofNat 32 (512 * r.val))) S1x1x23013.size (Gen.k0_off1_inb i r)))
      shapeCasts_S1x1x23013_S1x23013 (ix2 (0 : Fin 1) n) = _
  rw [shapeCast_1ab_ab_apply]
  show x0 ((Rect.unit (s := S1x1x378853) (k0_off1 i (BitVec.ofNat 32 (512 * r.val))) S1x1x23013.size (Gen.k0_off1_inb i r)).idx (ix3 (0 : Fin 1) (0 : Fin 1) n)) = _
  refine congrArg x0 (funext fun a => Fin.ext ?_)
  rw [LoadRect.idx_apply]
  show k0_off1 i (BitVec.ofNat 32 (512 * r.val)) a + 1 * ((ix3 (0 : Fin 1) (0 : Fin 1) n) a).val = _
  rw [Gen.k0_off1_eq i r]
  match a with
  | ⟨0, _⟩ => rfl
  | ⟨1, _⟩ => rfl
  | ⟨2, _⟩ => show 12288 * (i 1).val + 512 * r.val + 1 * n.val = 12288 * (i 1).val + 512 * r.val + n.val; omega

/-- The bound that keeps every frame inside the signal block. -/
theorem frame_inb (i : grid0.Coords) (r : Fin 24) (n : Fin 23013) : 12288 * (i 1).val + 512 * r.val + n.val < 378853 := by
  have h1 : (i 1).val < 29 := (i 1).isLt
  have := r.isLt; have := n.isLt
  omega

/-- Entry `(r, q)` of the output block of a point. -/
theorem outBlk_apply (i : grid0.Coords) (x0 : Vec Ideal S1x1x378853 .f32) (x1 x2 : Vec Ideal S168x23013 .bf16)
    (u : Fin 1) (r : Fin 24) (q : Fin 168) :
    outBlk (F := Ideal) i x0 x1 x2 (ix3 u r q)
      = Ideal.sqrt ((∑ n : Fin 23013, x0 (ix3 (0 : Fin 1) (0 : Fin 1) ⟨12288 * (i 1).val + 512 * r.val + n.val, frame_inb i r n⟩) * x1 (ix2 q n))
            * (∑ n : Fin 23013, x0 (ix3 (0 : Fin 1) (0 : Fin 1) ⟨12288 * (i 1).val + 512 * r.val + n.val, frame_inb i r n⟩) * x1 (ix2 q n))
          + (∑ n : Fin 23013, x0 (ix3 (0 : Fin 1) (0 : Fin 1) ⟨12288 * (i 1).val + 512 * r.val + n.val, frame_inb i r n⟩) * x2 (ix2 q n))
            * (∑ n : Fin 23013, x0 (ix3 (0 : Fin 1) (0 : Fin 1) ⟨12288 * (i 1).val + 512 * r.val + n.val, frame_inb i r n⟩) * x2 (ix2 q n))) := by
  unfold outBlk k0_pay2
  rw [shapeCast_ab_1ab_apply]
  simp only [shapeCast_self]
  have e : ∀ (a b : FVec Ideal S24x168 .f32),
      sqrt (addf (mulf a a) (mulf b b)) (ix2 r q) = Ideal.sqrt (a (ix2 r q) * a (ix2 r q) + b (ix2 r q) * b (ix2 r q)) := fun _ _ => rfl
  have hm : ∀ (y : FVec Ideal S168x23013 .bf16),
      matmul (F := Ideal) (φ₁ := .bf16) (φ₂ := .bf16) dot_S24x23013_S168x23013_S24x168_1_1_0_0_n_n none (frames (F := Ideal) i x0) y (constant (F := Ideal) S24x168 .f32 0x00000000#32) (ix2 r q)
        = ∑ n : Fin 23013, x0 (ix3 (0 : Fin 1) (0 : Fin 1) ⟨12288 * (i 1).val + 512 * r.val + n.val, frame_inb i r n⟩) * y (ix2 q n) := by
    intro y
    refine (Cert.LibDotT.matmulT_zero_apply (R := 24) (K := 23013) (C := 168) dot_S24x23013_S168x23013_S24x168_1_1_0_0_n_n.wf none
      (frames (F := Ideal) i x0) y r q).trans ?_
    refine Finset.sum_congr rfl fun n _ => ?_
    rw [frames_apply i x0 r n (frame_inb i r n)]
  rw [e, hm x1, hm x2]

end Cert.KernelIdeal.Body

end
-- ==== Proof.KernelIdealArray.lean ====
import proofs.«140795_j13426067767882_2_alg».proof.Proof.Gen.KernelIdeal.Frame
import proofs.«140795_j13426067767882_2_alg».proof.Proof.Gen.KernelIdeal.Skeleton
import proofs.«140795_j13426067767882_2_alg».proof.Proof.KernelIdealLaunch
import proofs.«140795_j13426067767882_2_alg».proof.Proof.KernelIdealValue
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable {F : FTy → Type} [FloatOps F]

local notation "𝕄" => MT nD τ sig Unit (Elt F) ℕ (UR sig nD τ) ℕ

/-! ## The output array after the run, as one function of the arrays the region finds

Point `t = (b, s)` of the grid reads batch `b` of the extended signal and both filter banks whole, and writes rows
`24 * s .. 24 * s + 23` of batch `b` of the output. Row `f = 24 * s + r` uses the window of the signal starting at
`12288 * s + 512 * r = 512 * f`: so the whole output array is ONE function of the arrays, and the 116 blocks tile it. -/

variable (m : (ℓ : Loc nD τ sig) → Buf (Elt Ideal) ℓ)

theorem win_inb (f : Fin 696) (n : Fin 23013) : 512 * f.val + n.val < 378853 := by
  have := f.isLt; have := n.isLt; omega

/-- Entry `(b, f, q)` of the output array from the extended signal `A0` and the filter banks `A1`, `A2`. -/
def G3c (A0 : S4x1x378853.Idx → EReal) (A1 A2 : S168x23013.Idx → EReal) (b : Fin 4) (f : Fin 696) (q : Fin 168) : EReal :=
  Ideal.sqrt ((∑ n : Fin 23013, A0 (ix3 b (0 : Fin 1) ⟨512 * f.val + n.val, win_inb f n⟩) * A1 (ix2 q n))
      * (∑ n : Fin 23013, A0 (ix3 b (0 : Fin 1) ⟨512 * f.val + n.val, win_inb f n⟩) * A1 (ix2 q n))
    + (∑ n : Fin 23013, A0 (ix3 b (0 : Fin 1) ⟨512 * f.val + n.val, win_inb f n⟩) * A2 (ix2 q n))
      * (∑ n : Fin 23013, A0 (ix3 b (0 : Fin 1) ⟨512 * f.val + n.val, win_inb f n⟩) * A2 (ix2 q n)))

/-- The output array. -/
def G3 (A0 : S4x1x378853.Idx → EReal) (A1 A2 : S168x23013.Idx → EReal) : S4x696x168.Idx → EReal := fun j =>
  G3c A0 A1 A2 ⟨(j 0).val, (j 0).isLt⟩ ⟨(j 1).val, (j 1).isLt⟩ ⟨(j 2).val, (j 2).isLt⟩

/-- The printed index maps, decided over the grid: the signal's block follows the point's first coordinate, the
    filter banks are one block each, the output's block follows both coordinates. -/
theorem idx_facts3 : ∀ t : Fin cfg0.N, win0_0.index t (0 : Fin 3) = (grid0.coords t 0).val
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = (grid0.coords t 0).val ∧ win0_3.index t (1 : Fin 3) = (grid0.coords t 1).val
    ∧ win0_3.index t (2 : Fin 3) = 0 :=
  (by decide +kernel : ∀ t : Fin grid0.N, _)

/-- Every output block is some point's. -/
theorem idx_onto3 : ∀ (q0 : Fin 4) (q1 : Fin 29), ∃ t : Fin cfg0.N, win0_3.index t = ![q0.val, q1.val, 0] :=
  (by decide +kernel : ∀ (q0 : Fin 4) (q1 : Fin 29), ∃ t : Fin grid0.N, win0_3.index t = ![q0.val, q1.val, 0])

theorem c0_lt (t : Fin cfg0.N) : (grid0.coords t 0).val < 4 := (grid0.coords t 0).isLt
theorem c1_lt (t : Fin cfg0.N) : (grid0.coords t 1).val < 29 := (grid0.coords t 1).isLt

/-- The signal block of point `t` is batch `b` of the extended signal. -/
theorem iblk0_apply (c : Dev nD) (t : Fin cfg0.N) (p : Fin 378853) :
    iblk m c 0 t (ix3 (0 : Fin 1) (0 : Fin 1) p) = V m c main_v0 (ix3 (⟨(grid0.coords t 0).val, c0_lt t⟩ : Fin 4) (0 : Fin 1) p) := by
  obtain ⟨e00, e01, e02, -⟩ := idx_facts3 t
  show V m c main_v0 (((cfg0.win 0).blk t).view.emb (ix3 (0 : Fin 1) (0 : Fin 1) p)) = _
  refine congrArg (V m c main_v0) (funext fun a => Fin.ext ?_)
  match a with
  | ⟨0, _⟩ => show win0_0.index t (0 : Fin 3) * 1 + 1 * 0 = (grid0.coords t 0).val; omega
  | ⟨1, _⟩ => show win0_0.index t (1 : Fin 3) * 1 + 1 * 0 = 0; omega
  | ⟨2, _⟩ => show win0_0.index t (2 : Fin 3) * 378853 + 1 * p.val = p.val; omega

/-- The filter banks' blocks are the banks. -/
theorem iblk1_eq (c : Dev nD) (t : Fin cfg0.N) : iblk m c 1 t = V m c main_v1 := by
  obtain ⟨-, -, -, e10, e11, -⟩ := idx_facts3 t
  funext y
  show V m c main_v1 (((cfg0.win 1).blk t).view.emb y) = _
  refine congrArg (V m c main_v1) (funext fun a => Fin.ext ?_)
  match a with
  | ⟨0, _⟩ => show win0_1.index t (0 : Fin 2) * 168 + 1 * (y 0).val = (y 0).val; omega
  | ⟨1, _⟩ => show win0_1.index t (1 : Fin 2) * 23013 + 1 * (y 1).val = (y 1).val; omega

theorem iblk2_eq (c : Dev nD) (t : Fin cfg0.N) : iblk m c 2 t = V m c main_v2 := by
  obtain ⟨-, -, -, -, -, e20, e21, -⟩ := idx_facts3 t
  funext y
  show V m c main_v2 (((cfg0.win 2).blk t).view.emb y) = _
  refine congrArg (V m c main_v2) (funext fun a => Fin.ext ?_)
  match a with
  | ⟨0, _⟩ => show win0_2.index t (0 : Fin 2) * 168 + 1 * (y 0).val = (y 0).val; omega
  | ⟨1, _⟩ => show win0_2.index t (1 : Fin 2) * 23013 + 1 * (y 1).val = (y 1).val; omega

theorem row_lt (t : Fin cfg0.N) (r : Fin 24) : 24 * (grid0.coords t 1).val + r.val < 696 := by
  have := c1_lt t; have := r.isLt; omega

/-- Entry `(u, r, q)` of point `t`'s output block sits at `(b, 24 * s + r, q)` of the output array. -/
theorem blk3_emb (t : Fin cfg0.N) (u : Fin 1) (r : Fin 24) (q : Fin 168) :
    ((cfg0.win 3).blk t).view.emb (ix3 u r q)
      = ix3 (⟨(grid0.coords t 0).val, c0_lt t⟩ : Fin 4) (⟨24 * (grid0.coords t 1).val + r.val, row_lt t r⟩ : Fin 696) q := by
  obtain ⟨-, -, -, -, -, -, -, e30, e31, e32⟩ := idx_facts3 t
  funext a; apply Fin.ext
  match a with
  | ⟨0, _⟩ => show win0_3.index t (0 : Fin 3) * 1 + 1 * u.val = (grid0.coords t 0).val; have := u.isLt; omega
  | ⟨1, _⟩ => show win0_3.index t (1 : Fin 3) * 24 + 1 * r.val = 24 * (grid0.coords t 1).val + r.val; omega
  | ⟨2, _⟩ => show win0_3.index t (2 : Fin 3) * 168 + 1 * q.val = q.val; omega

/-- WHAT POINT `t` WRITES BACK is block `t` of `G3` of the arrays as the region finds them. -/
theorem flushed3_eq (c : Dev nD) (t : Fin cfg0.N) :
    (dats m 0 c).flushed 3 t = ((cfg0.win 3).blk t).view.read (Elt Ideal) (G3 (V m c main_v0) (V m c main_v1) (V m c main_v2)) := by
  show (cfg0.win 3).cut (grid0.coords t) ((dats m 0 c).after 3 t) = _
  rw [after0_3, iblk1_eq, iblk2_eq]
  generalize hO : outBlk (F := Ideal) (grid0.coords t) (iblk m c 0 t) (V m c main_v1) (V m c main_v2) = O
  generalize hG : G3 (V m c main_v0) (V m c main_v1) (V m c main_v2) = Gf
  funext j
  obtain ⟨u, r, q, rfl⟩ : ∃ (u : Fin 1) (r : Fin 24) (q : Fin 168), j = ix3 u r q := ⟨j 0, j 1, j 2, eq_ix3 j⟩
  show O (ix3 u r q) = Gf (((cfg0.win 3).blk t).view.emb (ix3 u r q))
  rw [← hO, ← hG, outBlk_apply, blk3_emb]
  simp only [iblk0_apply]
  have hidx : ∀ n : Fin 23013,
      (⟨12288 * (grid0.coords t 1).val + 512 * r.val + n.val, frame_inb (grid0.coords t) r n⟩ : Fin 378853)
        = ⟨512 * (24 * (grid0.coords t 1).val + r.val) + n.val, win_inb ⟨24 * (grid0.coords t 1).val + r.val, row_lt t r⟩ n⟩ :=
    fun n => Fin.ext (by show 12288 * (grid0.coords t 1).val + 512 * r.val + n.val = 512 * (24 * (grid0.coords t 1).val + r.val) + n.val; omega)
  simp only [hidx]
  rfl

/-- An index of the output array is in point `t`'s block iff each coordinate is in the block's range. -/
theorem mem_blk3 (t : Fin cfg0.N) (i : S4x696x168.Idx) :
    i ∈ ((cfg0.win 3).blk t).view.set ↔ ∀ a : Fin 3, win0_3.index t a * S1x24x168.size a ≤ (i a).val ∧ (i a).val < win0_3.index t a * S1x24x168.size a + S1x24x168.size a := by
  show i ∈ ((View.whole main_v3).slice (win0_3.rect t)).set ↔ _
  rw [View.set_slice_whole, Rect.mem_set_unit]
  exact Iff.rfl

/-- The 116 blocks cover the output array: row `f` of batch `b` is in the block of point `(b, f / 24)`. -/
theorem cover3 (i : S4x696x168.Idx) :
    ∃ t : Fin cfg0.N, (cfg0.win 3).flush t = true ∧ i ∈ ((cfg0.win 3).blk t).view.set := by
  have hi0 : (i 0).val < 4 := (i 0).isLt
  have hi1 : (i 1).val < 696 := (i 1).isLt
  have hi2 : (i 2).val < 168 := (i 2).isLt
  obtain ⟨t, ht⟩ := idx_onto3 ⟨(i 0).val, hi0⟩ ⟨(i 1).val / 24, by omega⟩
  have q0 : win0_3.index t (0 : Fin 3) = (i 0).val := congrFun ht 0
  have q1 : win0_3.index t (1 : Fin 3) = (i 1).val / 24 := congrFun ht 1
  have q2 : win0_3.index t (2 : Fin 3) = 0 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 24 ≤ (i 1).val ∧ (i 1).val < win0_3.index t (1 : Fin 3) * 24 + 24; omega
  | ⟨2, _⟩ => show win0_3.index t (2 : Fin 3) * 168 ≤ (i 2).val ∧ (i 2).val < win0_3.index t (2 : Fin 3) * 168 + 168; omega

/-- THE OUTPUT ARRAY after the run. -/
theorem final3 (c : Dev nD) :
    (dats m 0 c).arrAt 3 cfg0.N = G3 (V m c main_v0) (V m c main_v1) (V m c main_v2) :=
  (dats m 0 c).arrAt_eq_of_cover 3 (G3 (V m c main_v0) (V m c main_v1) (V m c main_v2)) (fun t _ => flushed3_eq m c t) cover3

end Cert.KernelIdeal.Body

end
-- ==== Proof.KernelIdealGlue.lean ====
import proofs.«140795_j13426067767882_2_alg».proof.Proof.Gen.KernelIdeal.Frame
import proofs.«140795_j13426067767882_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal

/-!
  The host lines of the program around its one region, read index by index over the extended reals.

  Before the region the signal is extended by a pad value: 22501 entries before its first sample and 3584 after its
  last one, so that entry `p` of a batch is sample `p - 22501` where that is a sample and the pad value elsewhere.
  The two filter banks are narrowed to a shorter float format, which over the extended reals changes nothing. After
  the region, the first 689 of its 696 output rows are kept and a unit axis is inserted after the batch axis.
-/

set_option maxRecDepth 16384

noncomputable section

namespace Cert.KernelIdeal.Glue

open Cert.KernelIdeal Cert.KernelIdeal.Gen
open Idealize.ShloMosaic Idealize.ShloMosaic.TcCoe Idealize.ShloMosaic.Tactic
open Idealize.ShloMosaic.StableHlo
open Idealize.ShloMosaic.Pipeline (Dat Cfg Window BodyObligation cellOf)
open Idealize.ShloMosaic.ValueIdx

variable (m : (ℓ : Loc nD τ sig) → Buf (Elt Ideal) ℓ) (c : Dev nD)

/-- The pad value: the integer zero converted to a float. -/
abbrev PV : EReal := FloatOps.sitofp (F := Ideal) .f32 (0#32 : BitVec 32)

/-! ## Before the region -/

/-- The narrowed first filter bank, as the region finds it, is the bank itself. -/
theorem V_v1_apply (j : S168x23013.Idx) :
    (Gen.V m c main_v1 : S168x23013.Idx → EReal) j = (m ((c : Thread nD τ).loc main_arg1) : S168x23013.Idx → EReal) j := by
  have e : (Gen.V m c main_v1 : S168x23013.Idx → EReal) = (m ((c : Thread nD τ).loc main_arg1) : S168x23013.Idx → EReal) := by
    dsimp only [Gen.V, Gen.V0]
    simp only [Gen.hostOps0, Gen.hostOps0_1, Gen.hostOps0_2, List.flatten_cons, List.flatten_nil, List.append_nil,
      List.cons_append, List.nil_append]
    after_results
    rfl
  rw [e]

/-- The narrowed second filter bank, as the region finds it, is the bank itself. -/
theorem V_v2_apply (j : S168x23013.Idx) :
    (Gen.V m c main_v2 : S168x23013.Idx → EReal) j = (m ((c : Thread nD τ).loc main_arg2) : S168x23013.Idx → EReal) j := by
  have e : (Gen.V m c main_v2 : S168x23013.Idx → EReal) = (m ((c : Thread nD τ).loc main_arg2) : S168x23013.Idx → EReal) := by
    dsimp only [Gen.V, Gen.V0]
    simp only [Gen.hostOps0, Gen.hostOps0_1, Gen.hostOps0_2, List.flatten_cons, List.flatten_nil, List.append_nil,
      List.cons_append, List.nil_append]
    after_results
    rfl
  rw [e]

/-- The signal padded along its last axis, 22501 entries before and 3584 after, read at entry `p` of batch `b`:
    sample `p - 22501` where that is a sample, the pad value elsewhere. -/
theorem pad_last_apply (x : S4x1x352768.Idx → EReal) (v : S_.Idx → EReal)
    (h : S4x1x352768.Pads (![0, 0, 22501] : Fin 3 → Nat) ![0, 0, 3584] ![0, 0, 0] S4x1x378853) (hu : 0 < S_.numel)
    (b : Fin 4) (p : Fin 378853) :
    pad S4x1x378853 ![0, 0, 22501] ![0, 0, 3584] ![0, 0, 0] x v h hu (ix3 b (0 : Fin 1) p)
      = Cert.Spec.padded x (v (Shape.Idx.first hu)) b p.val := by
  unfold pad Cert.Spec.padded
  split_ifs with h1 h2 h2
  · refine congrArg x (funext fun a => Fin.ext ?_)
    match a with
    | ⟨0, _⟩ => show (b.val - 0) / (0 + 1) = b.val; omega
    | ⟨1, _⟩ => show ((0 : Fin 1).val - 0) / (0 + 1) = (0 : Fin 1).val; rfl
    | ⟨2, _⟩ => show (p.val - 22501) / (0 + 1) = p.val - 22501; omega
  · exfalso
    have h3 := h1 ⟨2, by decide⟩
    have h4 : 22501 ≤ p.val ∧ (p.val - 22501) % (0 + 1) = 0 ∧ (p.val - 22501) / (0 + 1) < 352768 := h3
    exact h2 ⟨h4.1, by have := h4.2.2; omega⟩
  · exfalso
    apply h1
    intro a
    match a with
    | ⟨0, _⟩ =>
      show 0 ≤ b.val ∧ (b.val - 0) % (0 + 1) = 0 ∧ (b.val - 0) / (0 + 1) < 4
      have := b.isLt; omega
    | ⟨1, _⟩ =>
      show 0 ≤ (0 : Fin 1).val ∧ ((0 : Fin 1).val - 0) % (0 + 1) = 0 ∧ ((0 : Fin 1).val - 0) / (0 + 1) < 1
      decide
    | ⟨2, _⟩ =>
      show 22501 ≤ p.val ∧ (p.val - 22501) % (0 + 1) = 0 ∧ (p.val - 22501) / (0 + 1) < 352768
      have := h2.1; have := h2.2; omega
  · rfl

/-- The padded signal as the region finds it: entry `p` of batch `b` is sample `p - 22501` of the batch where that
    is a sample, and the pad value elsewhere. -/
theorem V_v0_apply (b : Fin 4) (p : Fin 378853) :
    (Gen.V m c main_v0 : S4x1x378853.Idx → EReal) (ix3 b (0 : Fin 1) p)
      = Cert.Spec.padded (m ((c : Thread nD τ).loc main_arg0) : S4x1x352768.Idx → EReal) PV b p.val := by
  have e : (Gen.V m c main_v0 : S4x1x378853.Idx → EReal)
      = pad S4x1x378853 ![0, 0, 22501] ![0, 0, 3584] ![0, 0, 0] (m ((c : Thread nD τ).loc main_arg0) : S4x1x352768.Idx → EReal)
          (sitofp (F := Ideal) .f32 (constantI S_ 32 0#32)) pads_S4x1x352768_S4x1x378853_000_000_2250135840 h_S_ := by
    dsimp only [Gen.V, Gen.V0]
    simp only [Gen.hostOps0, Gen.hostOps0_1, Gen.hostOps0_2, List.flatten_cons, List.flatten_nil, List.append_nil,
      List.cons_append, List.nil_append]
    after_results
    rfl
  rw [e]
  exact pad_last_apply _ _ _ _ b p

/-! ## After the region -/

/-- The program's result at `(b, 0, f, q)` is the region's output array, after its last write-back, at `(b, f, q)`:
    the lines after the region keep the first 689 of the 696 rows and insert a unit axis. -/
theorem tail_apply (dats : (p : Fin 1) → (c : Dev nD) → Dat τ (Elt Ideal) Unit ℕ (UR sig nD τ) ℕ (cfgs p) c)
    (b : Fin 4) (f : Fin 689) (q : Fin 168) :
    (Pipeline.afterTail₀ cfgs dats 0 (Gen.V0 m) [hostOps1] c main_v5 : S4x1x689x168.Idx → EReal) (ix4 b (0 : Fin 1) f q)
      = ((dats 0 c).arrAt 3 cfg0.N : S4x696x168.Idx → EReal) (ix3 b (⟨f.val, by have := f.isLt; omega⟩ : Fin 696) q) := by
  have e : (Pipeline.afterTail₀ cfgs dats 0 (Gen.V0 m) [hostOps1] c main_v5 : S4x1x689x168.Idx → EReal)
      = broadcastInDim S4x1x689x168 ![0, 2, 3] bcast_S4x689x168_S4x1x689x168_0_2_3
          (extractStridedSlice S4x689x168 ![0, 0, 0] ((dats 0 c).arrAt 3 cfg0.N : S4x696x168.Idx → EReal)
            slices_S4x696x168_S4x689x168_0_0_0) := by
    unfold Pipeline.afterTail₀
    show StableHlo.after hostOps1 _ (Proc.devRef .tc main_v5) = _
    after_results
    refine congrArg (fun x : S4x696x168.Idx → EReal => broadcastInDim S4x1x689x168 ![0, 2, 3] bcast_S4x689x168_S4x1x689x168_0_2_3
      (extractStridedSlice S4x689x168 ![0, 0, 0] x slices_S4x696x168_S4x689x168_0_0_0)) ?_
    exact Pipeline.withArrays_arr spec0 launch0.win.arr_inj c _ _ 3
  rw [e]
  refine (broadcastInDim_apply _ _ _ (ix4 b (0 : Fin 1) f q) (ix3 b f q) ?_).trans ?_
  · intro a
    match a with
    | ⟨0, _⟩ => rfl
    | ⟨1, _⟩ => rfl
    | ⟨2, _⟩ => rfl
  · exact slice3_axis1_apply 0 _ _ b f q ⟨f.val, by have := f.isLt; omega⟩ (Nat.zero_add _).symm

end Cert.KernelIdeal.Glue

end
-- ==== Proof.RefValue.lean ====
import proofs.«140795_j13426067767882_2_alg».proof.Proof.Gen.ReferenceIdeal.Read
import proofs.«140795_j13426067767882_2_alg».proof.Proof.Spec
import Idealize.ShloMosaic.Lib.ValueIdx
import Idealize.ShloMosaic.Lib.KernelVsHost
import Idealize.ShloMosaic.PureOps.Ideal.Laws

/-!
  The reference program read index by index: its result is the common value `Cert.Spec.G` of the signal, the two
  filter banks and the pad value.

  The program extends the signal on the left by 22501 pad values (`pad_apply`), builds the table of start indices
  `512 * f + n` as 32-bit words (`startIdx_apply`: the products and sums stay below `2 ^ 31`, so no word wraps and none
  is negative), gathers entry `512 * f + n` of the extended signal into entry `(f, n)` of the frames
  (`gather_apply`, `frames_apply`: the largest start index is `512 * 688 + 23012 = 375268`, the last entry, so the
  clamp of the start index is the identity), contracts the frames with each filter bank over `n` (`re_apply`,
  `im_apply`), and takes the modulus of the two responses (`ref_apply`, `ref_eq`). The pad value is never evaluated:
  it stays the term the program computes it by, the 32-bit integer zero converted to a float.
-/

noncomputable section

open scoped BigOperators

namespace Cert.RefValue

open Cert.ReferenceIdeal Cert.ReferenceIdeal.Gen Cert.ReferenceIdeal.Read Idealize.ShloMosaic Idealize.ShloMosaic.ValueIdx

/-- The pad value: the 32-bit integer zero converted to a float. -/
abbrev PV : EReal := FloatOps.sitofp (F := Ideal) .f32 (0#32 : BitVec 32)

/-! ## The extended signal -/

/-- The pad operand is the pad value at its one index. -/
theorem padValue_apply (i : S_.Idx) : val_main_call0_v0 (F := Ideal) i = PV := rfl

/-- The condition under which an index of the extended signal reads a sample: the first two coordinates agree and the
    third is 22501 further. -/
theorem pad_inside_cond (j : S4x1x375269.Idx) (k : S4x1x352768.Idx) (h0 : (j 0).val = (k 0).val)
    (h1 : (j 1).val = (k 1).val) (h2 : (j 2).val = 22501 + (k 2).val) :
    ∀ a : Fin S4x1x352768.rank, (j (a.cast Facts₀.pads_S4x1x352768_S4x1x375269_000_000_2250100.1)).val
      = (![0, 0, 22501] : Fin 3 → Nat) a + (k a).val * ((![0, 0, 0] : Fin 3 → Nat) a + 1) := fun a =>
  match a with
  | ⟨0, _⟩ => by show (j 0).val = 0 + (k 0).val * (0 + 1); omega
  | ⟨1, _⟩ => by show (j 1).val = 0 + (k 1).val * (0 + 1); omega
  | ⟨2, _⟩ => by show (j 2).val = 22501 + (k 2).val * (0 + 1); omega

/-- Entry `(b, 0, p)` of the extended signal: sample `p - 22501` from entry 22501 on, the pad value before. -/
theorem pad_apply (x0 : (⟨S4x1x352768, .f32⟩ : BufTy).Contents (Elt Ideal)) (b : Fin 4) (p : Fin 375269) :
    val_main_v0 (F := Ideal) x0 (ix3 b (0 : Fin 1) p) = Cert.Spec.padded x0 PV b p.val := by
  unfold val_main_v0 Cert.Spec.padded
  by_cases hp : 22501 ≤ p.val
  · have hlt : p.val - 22501 < 352768 := by have := p.isLt; omega
    rw [dif_pos ⟨hp, hlt⟩]
    refine pad_apply_of_inside (s := S4x1x352768) (t := S4x1x375269) ![0, 0, 22501] ![0, 0, 0] ![0, 0, 0] x0
      (val_main_call0_v0 (F := Ideal)) Facts₀.pads_S4x1x352768_S4x1x375269_000_000_2250100 Facts₀.h_S_
      (ix3 b (0 : Fin 1) p) (ix3 b (0 : Fin 1) ⟨p.val - 22501, hlt⟩) (pad_inside_cond _ _ rfl rfl ?_)
    show p.val = 22501 + (p.val - 22501); omega
  · rw [dif_neg (fun h => hp h.1)]
    refine (pad_apply_of_not_inside (s := S4x1x352768) (t := S4x1x375269) ![0, 0, 22501] ![0, 0, 0] ![0, 0, 0] x0
      (val_main_call0_v0 (F := Ideal)) Facts₀.pads_S4x1x352768_S4x1x375269_000_000_2250100 Facts₀.h_S_
      (ix3 b (0 : Fin 1) p) (2 : Fin 3) (fun h => hp ?_)).trans (padValue_apply _)
    exact h.1

/-! ## The frames -/

/-- The dimension numbers of the program's gather: the operand `[4, 1, 375269]` is sliced `[4, 1, 1]` at a start index
    on its last axis, one start index per entry of the `[689, 23013]` table. -/
abbrev GD : GatherDims S4x1x375269 S689x23013x1 S4x1x689x23013 :=
  gather_S4x1x375269_S689x23013x1_S4x1x689x23013_01_2_n_n_2_2_411

/-- Result index `(b, c, f, n)` reads its start index at `(f, n, 0)` of the table. -/
theorem siIdx_eq (j : S4x1x689x23013.Idx) (c : Fin GD.startIndexMap.length) :
    GD.siIdx j c = ix3 (n0 := 689) (n1 := 23013) (n2 := 1) (j 2) (j 3) 0 := by
  have hc : c.val = 0 := by have : c.val < 1 := c.isLt; omega
  funext a; refine Fin.ext ?_
  match a with
  | ⟨0, _⟩ => rfl
  | ⟨1, _⟩ => rfl
  | ⟨2, _⟩ => exact hc

/-- On the first axis the operand index is the result's first coordinate. -/
theorem operand_0 (idx : IVec S689x23013x1 32) (j : S4x1x689x23013.Idx) : (GD.operandIdx j idx 0).val = (j 0).val := by
  show GD.start j idx 0 + GD.batchCoord j 0 + GD.offCoord j 0 = _
  rw [GatherDims.batchCoord_eq_zero _ _ _ List.not_mem_nil, Nat.add_zero]
  unfold GatherDims.start GatherDims.offCoord
  rw [dif_neg (show ¬(0 : Fin S4x1x375269.rank) ∈ GD.startIndexMap by decide),
    dif_pos (show (0 : Fin S4x1x375269.rank) ∈ GD.sKept by decide), Nat.zero_add]
  rfl

/-- On the second axis it is the result's second coordinate. -/
theorem operand_1 (idx : IVec S689x23013x1 32) (j : S4x1x689x23013.Idx) : (GD.operandIdx j idx 1).val = (j 1).val := by
  show GD.start j idx 1 + GD.batchCoord j 1 + GD.offCoord j 1 = _
  rw [GatherDims.batchCoord_eq_zero _ _ _ List.not_mem_nil, Nat.add_zero]
  unfold GatherDims.start GatherDims.offCoord
  rw [dif_neg (show ¬(1 : Fin S4x1x375269.rank) ∈ GD.startIndexMap by decide),
    dif_pos (show (1 : Fin S4x1x375269.rank) ∈ GD.sKept by decide), Nat.zero_add]
  rfl

/-- On the last axis it is the start index, read as a signed integer and clamped into `[0, 375268]`. -/
theorem operand_2 (idx : IVec S689x23013x1 32) (j : S4x1x689x23013.Idx) :
    (GD.operandIdx j idx 2).val
      = min (idx (ix3 (n0 := 689) (n1 := 23013) (n2 := 1) (j 2) (j 3) 0)).toInt.toNat 375268 := by
  show GD.start j idx 2 + GD.batchCoord j 2 + GD.offCoord j 2 = _
  rw [GatherDims.batchCoord_eq_zero _ _ _ List.not_mem_nil, Nat.add_zero,
    GatherDims.offCoord_eq_zero _ _ _ (show ¬(2 : Fin S4x1x375269.rank) ∈ GD.sKept by decide), Nat.add_zero]
  unfold GatherDims.start
  rw [dif_pos (show (2 : Fin S4x1x375269.rank) ∈ GD.startIndexMap by decide), siIdx_eq]
  rfl

/-- The gather read at an index: the operand at the result's first two coordinates and the clamped start index. -/
theorem gather_apply {α : Type} (x : S4x1x375269.Idx → α) (idx : IVec S689x23013x1 32) (j : S4x1x689x23013.Idx) :
    Host.gather GD x idx j = x (ix3 (n0 := 4) (n1 := 1) (n2 := 375269) (j 0) (j 1)
      ⟨min (idx (ix3 (n0 := 689) (n1 := 23013) (n2 := 1) (j 2) (j 3) 0)).toInt.toNat 375268, by omega⟩) := by
  unfold Host.gather
  refine congrArg x (funext fun a => Fin.ext ?_)
  match a with
  | ⟨0, _⟩ => exact operand_0 idx j
  | ⟨1, _⟩ => exact operand_1 idx j
  | ⟨2, _⟩ => exact operand_2 idx j

/-! ## Indices with equal coordinates are equal -/

theorem ix2_ext {n0 n1 : Nat} (i k : (⟨2, ![n0, n1]⟩ : Shape).Idx) (h0 : (i 0).val = (k 0).val)
    (h1 : (i 1).val = (k 1).val) : i = k := by
  funext a; refine Fin.ext ?_
  match a with
  | ⟨0, _⟩ => exact h0
  | ⟨1, _⟩ => exact h1

theorem ix3_ext {n0 n1 n2 : Nat} (i k : (⟨3, ![n0, n1, n2]⟩ : Shape).Idx) (h0 : (i 0).val = (k 0).val)
    (h1 : (i 1).val = (k 1).val) (h2 : (i 2).val = (k 2).val) : i = k := by
  funext a; refine Fin.ext ?_
  match a with
  | ⟨0, _⟩ => exact h0
  | ⟨1, _⟩ => exact h1
  | ⟨2, _⟩ => exact h2

theorem ix4_ext {n0 n1 n2 n3 : Nat} (i k : (⟨4, ![n0, n1, n2, n3]⟩ : Shape).Idx) (h0 : (i 0).val = (k 0).val)
    (h1 : (i 1).val = (k 1).val) (h2 : (i 2).val = (k 2).val) (h3 : (i 3).val = (k 3).val) : i = k := by
  funext a; refine Fin.ext ?_
  match a with
  | ⟨0, _⟩ => exact h0
  | ⟨1, _⟩ => exact h1
  | ⟨2, _⟩ => exact h2
  | ⟨3, _⟩ => exact h3

/-! ## The start indices as words -/

/-- A natural number below `2 ^ 31`, as a 32-bit word, reads back as itself when the word is read signed. -/
theorem toInt_ofNat_small (m : Nat) (hm : m < 2147483648) : (BitVec.ofNat 32 m).toInt = (m : Int) := by
  have h1 : (BitVec.ofNat 32 m).toNat = m := by
    rw [BitVec.toNat_ofNat]; exact Nat.mod_eq_of_lt (by omega)
  rw [BitVec.toInt_eq_toNat_of_lt (by rw [h1]; omega), h1]

/-- Such a word is not negative. -/
theorem cmpi_slt_zero_small (m : Nat) (hm : m < 2147483648) : IntOp.cmpi .slt (BitVec.ofNat 32 m) 0#32 = 0#1 := by
  show BitVec.ofBool ((BitVec.ofNat 32 m).slt 0#32) = 0#1
  rw [BitVec.slt_eq_decide, toInt_ofNat_small m hm, decide_eq_false (by rw [BitVec.toInt_zero]; omega)]
  rfl

/-- The sum `f * 512 + n` of the two broadcast iotas, as a word. -/
theorem sumWord_apply (f : Fin 689) (n : Fin 23013) :
    val_main_v9 (F := Ideal) (ix2 f n) = BitVec.ofNat 32 (512 * f.val + n.val) := by
  have hw : BitVec.ofNat 32 (512 * f.val + n.val) = BitVec.ofNat 32 f.val * 512#32 + BitVec.ofNat 32 n.val := by
    rw [Nat.mul_comm, BitVec.ofNat_add, BitVec.ofNat_mul]
  rw [hw, val_main_v9_apply, val_main_v7_apply, val_main_v8_apply, val_main_v4_apply, val_main_v2_apply,
    val_main_v3_apply, val_main_v1_apply, val_main_c_0_apply, val_main_v6_apply, val_main_v5_apply]
  rfl

/-- The start index at `(f, n, 0)` of the table is the word `512 * f + n`: the sum is not negative, so the wrap of
    negative indices leaves it. -/
theorem startIdx_apply (f : Fin 689) (n : Fin 23013) :
    val_main_v15 (F := Ideal) (ix3 f n (0 : Fin 1)) = BitVec.ofNat 32 (512 * f.val + n.val) := by
  have hm : 512 * f.val + n.val < 2147483648 := by have := f.isLt; have := n.isLt; omega
  have hi : idx_main_v15 (ix3 f n (0 : Fin 1)) = ix2 f n := ix2_ext _ _ rfl rfl
  rw [val_main_v15_apply, hi, val_main_v14_apply, val_main_v11_apply, val_main_v10_apply, val_main_c_1_apply,
    sumWord_apply, cmpi_slt_zero_small _ hm, select_zero]

/-! ## The frames at an index, and the result -/

/-- The gather at coordinates `(b, c, f, n)`, once the clamped start index at `(f, n, 0)` of the table is known to be
    the entry `m`: the operand at `(b, c, m)`. -/
theorem gather_apply_of_start {α : Type} (x : S4x1x375269.Idx → α) (idx : IVec S689x23013x1 32) (b : Fin 4) (c : Fin 1)
    (f : Fin 689) (n : Fin 23013) (m : Fin 375269)
    (hm : min (idx (ix3 f n (0 : Fin 1))).toInt.toNat 375268 = m.val) :
    Host.gather GD x idx (ix4 b c f n) = x (ix3 b c m) := by
  rw [gather_apply]
  refine congrArg x (ix3_ext _ _ ?_ ?_ ?_)
  · rfl
  · rfl
  · exact hm

/-- Entry `(b, 0, f, n)` of the frames is entry `512 * f + n` of batch `b` of the extended signal: the start index is
    at most `512 * 688 + 23012 = 375268`, so the clamp leaves it. -/
theorem frames_apply (x0 : (⟨S4x1x352768, .f32⟩ : BufTy).Contents (Elt Ideal)) (b : Fin 4) (f : Fin 689)
    (n : Fin 23013) :
    val_main_v16 (F := Ideal) x0 (ix4 b (0 : Fin 1) f n) = Cert.Spec.padded x0 PV b (512 * f.val + n.val) := by
  have hlt : 512 * f.val + n.val < 375269 := by have := f.isLt; have := n.isLt; omega
  have hstart : min (val_main_v15 (F := Ideal) (ix3 f n (0 : Fin 1))).toInt.toNat 375268 = 512 * f.val + n.val := by
    rw [startIdx_apply, toInt_ofNat_small _ (by omega)]; omega
  unfold val_main_v16
  rw [gather_apply_of_start (val_main_v0 (F := Ideal) x0) (val_main_v15 (F := Ideal)) b 0 f n
    ⟨512 * f.val + n.val, hlt⟩ hstart]
  exact pad_apply x0 b ⟨512 * f.val + n.val, hlt⟩

/-- The response of the real filter bank: the plain sum of products of the frame with the filter's row. -/
theorem re_apply (x0 : (⟨S4x1x352768, .f32⟩ : BufTy).Contents (Elt Ideal))
    (x1 : (⟨S168x23013, .f32⟩ : BufTy).Contents (Elt Ideal)) (b : Fin 4) (f : Fin 689) (q : Fin 168) :
    val_main_v17 (F := Ideal) x0 x1 (ix4 b (0 : Fin 1) f q) = Cert.Spec.corr x0 PV x1 b f q := by
  rw [val_main_v17_apply]
  unfold Cert.Spec.corr
  refine Finset.sum_congr rfl fun k _ => ?_
  have hl : lidx_main_v17 (ix4 b (0 : Fin 1) f q) k = ix4 b (0 : Fin 1) f k := by
    refine ix4_ext _ _ ?_ ?_ ?_ ?_ <;> rfl
  have hr : ridx_main_v17 (ix4 b (0 : Fin 1) f q) k = ix2 q k := by
    refine ix2_ext _ _ ?_ ?_ <;> rfl
  rw [hl, hr, frames_apply]

/-- The response of the imaginary filter bank, likewise. -/
theorem im_apply (x0 : (⟨S4x1x352768, .f32⟩ : BufTy).Contents (Elt Ideal))
    (x2 : (⟨S168x23013, .f32⟩ : BufTy).Contents (Elt Ideal)) (b : Fin 4) (f : Fin 689) (q : Fin 168) :
    val_main_v18 (F := Ideal) x0 x2 (ix4 b (0 : Fin 1) f q) = Cert.Spec.corr x0 PV x2 b f q := by
  rw [val_main_v18_apply]
  unfold Cert.Spec.corr
  refine Finset.sum_congr rfl fun k _ => ?_
  have hl : lidx_main_v18 (ix4 b (0 : Fin 1) f q) k = ix4 b (0 : Fin 1) f k := by
    refine ix4_ext _ _ ?_ ?_ ?_ ?_ <;> rfl
  have hr : ridx_main_v18 (ix4 b (0 : Fin 1) f q) k = ix2 q k := by
    refine ix2_ext _ _ ?_ ?_ <;> rfl
  rw [hl, hr, frames_apply]

/-- The result at coordinates `(b, 0, f, q)`: the modulus of the two responses. -/
theorem ref_apply (x0 : (⟨S4x1x352768, .f32⟩ : BufTy).Contents (Elt Ideal))
    (x1 x2 : (⟨S168x23013, .f32⟩ : BufTy).Contents (Elt Ideal)) (b : Fin 4) (f : Fin 689) (q : Fin 168) :
    val_main_v22 (F := Ideal) x0 x1 x2 (ix4 b (0 : Fin 1) f q) = Cert.Spec.G x0 x1 x2 PV (ix4 b (0 : Fin 1) f q) := by
  rw [val_main_v22_apply, val_main_v21_apply, val_main_v19_apply, val_main_v20_apply, re_apply, im_apply]
  show _ = Ideal.sqrt (Cert.Spec.corr x0 PV x1 b f q * Cert.Spec.corr x0 PV x1 b f q
    + Cert.Spec.corr x0 PV x2 b f q * Cert.Spec.corr x0 PV x2 b f q)
  generalize Cert.Spec.corr x0 PV x1 b f q = A
  generalize Cert.Spec.corr x0 PV x2 b f q = B
  rfl

/-- THE REFERENCE'S RESULT is the common value of the signal, the two filter banks and the pad value. -/
theorem ref_eq (x0 : (⟨S4x1x352768, .f32⟩ : BufTy).Contents (Elt Ideal))
    (x1 x2 : (⟨S168x23013, .f32⟩ : BufTy).Contents (Elt Ideal)) :
    val_main_v22 (F := Ideal) x0 x1 x2
      = Cert.Spec.G x0 x1 x2 (FloatOps.sitofp (F := Ideal) .f32 (0#32 : BitVec 32)) := by
  funext j
  have h1 : (j 1).val = 0 := by have : (j 1).val < 1 := (j 1).isLt; omega
  have hj : j = ix4 (n0 := 4) (n1 := 1) (n2 := 689) (n3 := 168) (j 0) 0 (j 2) (j 3) := by
    refine ix4_ext _ _ ?_ ?_ ?_ ?_
    · rfl
    · exact h1
    · rfl
    · rfl
  rw [hj]
  exact ref_apply x0 x1 x2 (j 0) (j 2) (j 3)

end Cert.RefValue

end
-- ==== Proof.KernelBodyRun.lean ====
import proofs.«140795_j13426067767882_2_alg».proof.Proof.Gen.Kernel.Frame
import proofs.«140795_j13426067767882_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's run

The body fills the 24 rows of its scratch one after the other — row `r` with the 23013 entries of the signal
block that start at `12288 * t + 512 * r`, narrowed to the scratch's format — through read-modify-write stores of two
rows at a time, then loads the scratch whole and multiplies it with the two filter banks. Run from whole memrefs
whose contents are named, it ends with the output's memref and the scratch each at a list of pieces written over
what they held; the lists are found by the run. -/

set_option maxHeartbeats 4000000 in
noncomputable def bodyRun (c : Dev nD) (i : grid0.Coords)
    (arg2 : Memref sig .tc .vmem S1x1x378853 .f32) (harg2 : arg2.IsWhole)
    (arg3 : Memref sig .tc .vmem S168x23013 .bf16) (harg3 : arg3.IsWhole)
    (arg4 : Memref sig .tc .vmem S168x23013 .bf16) (harg4 : arg4.IsWhole)
    (arg5 : Memref sig .tc .vmem S1x24x168 .f32) (harg5 : arg5.IsWhole)
    (arg6 : Memref sig .tc .vmem S24x23013 .bf16) (harg6 : arg6.IsWhole)
    (x0 : Vec F S1x1x378853 .f32) (x1 : Vec F S168x23013 .bf16) (x2 : Vec F S168x23013 .bf16)
    (fs : BufTy.Contents (Elt F) arg6.view.ty) :
    Σ' (L3 : List (View.Piece (Elt F) S1x24x168 .f32)), { LS : List (View.Piece (Elt F) S24x23013 .bf16) //
      ∀ (f3 : BufTy.Contents (Elt F) arg5.view.ty) (E : Set ℕ) (K : PUnit → sProp 𝕄),
        iprop(owns (c : Thread nD τ) arg2 fullShare x0 ∗ owns (c : Thread nD τ) arg3 fullShare x1 ∗ owns (c : Thread nD τ) arg4 fullShare x2
            ∗ (arg5.view.loc (c : Thread nD τ) ↦[arg5.view.set]{fullShare} f3)
            ∗ (arg6.view.loc (c : Thread nD τ) ↦[arg6.view.set]{fullShare} fs)
            ∗ (iprop(owns (c : Thread nD τ) arg2 fullShare x0 ∗ owns (c : Thread nD τ) arg3 fullShare x1 ∗ owns (c : Thread nD τ) arg4 fullShare x2
                ∗ (arg5.view.loc (c : Thread nD τ) ↦[arg5.view.set]{fullShare} arg5.view.writes (Elt F) f3 L3)
                ∗ (arg6.view.loc (c : Thread nD τ) ↦[arg6.view.set]{fullShare} arg6.view.writes (Elt F) fs LS)) -∗ K ⟨⟩))
          ⊢ wp frame (wpE (defs₀ (F := F)) Variants.none c none) E (cc0__cqt_kernel i arg2 harg2 arg3 harg3 arg4 harg4 arg5 harg5 arg6 harg6) K } := by
  refine ⟨?_, ?_, fun f3 E K => ?run⟩
  case run =>
    simp only [cc0__cqt_kernel_eq_skeleton]; unfold cc0__cqt_kernel_skel
    unfold owns
    iintro ⟨⟨%f0, %hf0, H0⟩, ⟨%f1, %hf1, H1⟩, ⟨%f2, %hf2, H2⟩, H3, HS, Hk⟩
    obtain rfl := harg2.eq_unread hf0; obtain rfl := harg3.eq_unread hf1; obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    iexact HS

end Cert.Kernel.Body

end
-- ==== Proof.KernelFrames.lean ====
import proofs.«140795_j13426067767882_2_alg».proof.Proof.Gen.Kernel.Frame
import proofs.«140795_j13426067767882_2_alg».proof.Proof.Gen.Kernel.Skeleton
import proofs.«140795_j13426067767882_2_alg».proof.Proof.KernelBodyRun
import proofs.«140795_j13426067767882_2_alg».proof.Proof.LibRowPairs
import Idealize.ShloMosaic.Lib.Pipeline.Value
import Idealize.ShloMosaic.Lib.ValueIdx
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

/-! ## The frames the body builds in its scratch

Row `r` of the scratch ends at the 23013 entries of the signal block that start at entry
`12288 * t + 512 * r` (`t` the point's second coordinate), narrowed to the scratch's format; the 24 rows together are
the frames of the point. Whatever the scratch held before the point is gone: each two-row word is written twice, and
the two stores together replace both rows. -/

/-- Row `r` of the frames at a point with coordinates `i`, from the signal block `x0`. -/
def frameRow (i : grid0.Coords) (x0 : Vec F S1x1x378853 .f32) (r : Fin 24) : FVec F S1x23013 .bf16 :=
  k0_pay3 (View.ld x0 (Rect.unit (s := S1x1x378853) (k0_off1 i (BitVec.ofNat 32 (512 * r.val))) S1x1x23013.size (Gen.k0_off1_inb i r)))

/-- The 24 frames of a point, as one array. -/
def frames (i : grid0.Coords) (x0 : Vec F S1x1x378853 .f32) : Vec F S24x23013 .bf16 :=
  fun y => frameRow i x0 ⟨(y 0).val, (y 0).isLt⟩ (ix2 (0 : Fin 1) ⟨(y 1).val, (y 1).isLt⟩)

theorem zero2 : (![0, 0] : Fin 2 → ℕ) = fun _ => 0 := by
  funext a; match a with | ⟨0, _⟩ => rfl | ⟨1, _⟩ => rfl

set_option maxHeartbeats 4000000 in
/-- What the body's whole-scratch load reads, after its 24 stores, is the frames: nothing of the scratch's earlier
    contents `fs`. -/
theorem scratch_eq (c : Dev nD) (i : grid0.Coords)
    (arg2 : Memref sig .tc .vmem S1x1x378853 .f32) (harg2 : arg2.IsWhole)
    (arg6 : Memref sig .tc .vmem S24x23013 .bf16)
    (x0 : Vec F S1x1x378853 .f32) (fs : BufTy.Contents (Elt F) arg6.view.ty) :
    bodyRun.sl.v218 c i arg2 harg2 arg6 x0 fs = frames i x0 := by
  unfold bodyRun.sl.v218
  show View.ld (arg6.view.read (Elt F) (arg6.view.writes (Elt F) arg6.view.junk (bodyRun.sl.HS_24 c i arg2 harg2 arg6 x0 fs)))
    (Rect.unit (s := S24x23013) ![0, 0] S24x23013.size Gen.inb_S24x23013_S24x23013_0_0) = _
  rw [View.ld_unit_zero (S := S24x23013) zero2]
  funext y
  obtain ⟨r, n, rfl⟩ : ∃ (r : Fin 24) (n : Fin 23013), y = ix2 r n := ⟨y 0, y 1, eq_ix2 y⟩
  unfold bodyRun.sl.HS_24 bodyRun.sl.old_22 bodyRun.sl.HS_23
  dsimp only
  rw [Cert.LibRowPairs.read_pair arg6.view _ 22 _ _ _ _ _ _ _ r n]
  unfold bodyRun.sl.old_20 bodyRun.sl.HS_21
  dsimp only
  rw [Cert.LibRowPairs.read_pair arg6.view _ 20 _ _ _ _ _ _ _ r n]
  unfold bodyRun.sl.old_18 bodyRun.sl.HS_19
  dsimp only
  rw [Cert.LibRowPairs.read_pair arg6.view _ 18 _ _ _ _ _ _ _ r n]
  unfold bodyRun.sl.old_16 bodyRun.sl.HS_17
  dsimp only
  rw [Cert.LibRowPairs.read_pair arg6.view _ 16 _ _ _ _ _ _ _ r n]
  unfold bodyRun.sl.old_14 bodyRun.sl.HS_15
  dsimp only
  rw [Cert.LibRowPairs.read_pair arg6.view _ 14 _ _ _ _ _ _ _ r n]
  unfold bodyRun.sl.old_12 bodyRun.sl.HS_13
  dsimp only
  rw [Cert.LibRowPairs.read_pair arg6.view _ 12 _ _ _ _ _ _ _ r n]
  unfold bodyRun.sl.old_10 bodyRun.sl.HS_11
  dsimp only
  rw [Cert.LibRowPairs.read_pair arg6.view _ 10 _ _ _ _ _ _ _ r n]
  unfold bodyRun.sl.old_8 bodyRun.sl.HS_9
  dsimp only
  rw [Cert.LibRowPairs.read_pair arg6.view _ 8 _ _ _ _ _ _ _ r n]
  unfold bodyRun.sl.old_6 bodyRun.sl.HS_7
  dsimp only
  rw [Cert.LibRowPairs.read_pair arg6.view _ 6 _ _ _ _ _ _ _ r n]
  unfold bodyRun.sl.old_4 bodyRun.sl.HS_5
  dsimp only
  rw [Cert.LibRowPairs.read_pair arg6.view _ 4 _ _ _ _ _ _ _ r n]
  unfold bodyRun.sl.old_2 bodyRun.sl.HS_3
  dsimp only
  rw [Cert.LibRowPairs.read_pair arg6.view _ 2 _ _ _ _ _ _ _ r n]
  unfold bodyRun.sl.old bodyRun.sl.HS_1
  dsimp only
  rw [Cert.LibRowPairs.read_pair arg6.view _ 0 _ _ _ _ _ _ _ r n]
  unfold bodyRun.sl.r bodyRun.sl.r_1 bodyRun.sl.r_2 bodyRun.sl.r_3 bodyRun.sl.r_4 bodyRun.sl.r_5
  simp only [View.readAt_eq_ld, harg2.read_unread]
  obtain ⟨k, hk⟩ := r
  interval_cases k <;> (simp only [Fin.val_mk, Nat.reduceAdd, Nat.reduceEqDiff, reduceIte]; rfl)

/-- The output block of a point: the modulus of the two products of the point's frames with the filter banks. -/
def outBlk (i : grid0.Coords) (x0 : Vec F S1x1x378853 .f32) (x1 x2 : Vec F S168x23013 .bf16) : Vec F S1x24x168 .f32 :=
  k0_pay2 (frames i x0) x1 x2

theorem zero3 : (![0, 0, 0] : Fin 3 → ℕ) = fun _ => 0 := by
  funext a; match a with | ⟨0, _⟩ => rfl | ⟨1, _⟩ => rfl | ⟨2, _⟩ => rfl

/-- The body's one store into the output block is of `outBlk` of the input blocks, through the whole block. -/
theorem bodyRun_out (c : Dev nD) (i : grid0.Coords)
    (arg2 : Memref sig .tc .vmem S1x1x378853 .f32) (harg2 : arg2.IsWhole)
    (arg3 : Memref sig .tc .vmem S168x23013 .bf16) (harg3 : arg3.IsWhole)
    (arg4 : Memref sig .tc .vmem S168x23013 .bf16) (harg4 : arg4.IsWhole)
    (arg5 : Memref sig .tc .vmem S1x24x168 .f32) (harg5 : arg5.IsWhole)
    (arg6 : Memref sig .tc .vmem S24x23013 .bf16) (harg6 : arg6.IsWhole)
    (x0 : Vec F S1x1x378853 .f32) (x1 : Vec F S168x23013 .bf16) (x2 : Vec F S168x23013 .bf16)
    (fs : BufTy.Contents (Elt F) arg6.view.ty) :
    (bodyRun c i arg2 harg2 arg3 harg3 arg4 harg4 arg5 harg5 arg6 harg6 x0 x1 x2 fs).1
      = [⟨Rect.unit (s := S1x24x168) ![0, 0, 0] S1x24x168.size Gen.inb_S1x24x168_S1x24x168_0_0_0, outBlk i x0 x1 x2⟩] := by
  unfold bodyRun; dsimp only
  rw [scratch_eq]
  simp only [View.readAt_eq_ld, harg3.read_unread, harg4.read_unread, View.ld_unit_zero (S := S168x23013) zero2]
  rfl

end Cert.Kernel.Body

end
-- ==== Proof.KernelLaunch.lean ====
import proofs.«140795_j13426067767882_2_alg».proof.Proof.Gen.Kernel.Frame
import proofs.«140795_j13426067767882_2_alg».proof.Proof.Gen.Kernel.Skeleton
import proofs.«140795_j13426067767882_2_alg».proof.Proof.KernelFrames
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body on any staging memrefs

From the three input blocks held whole at named contents, the output block and the scratch at anything, the body
runs to its end with the inputs as they were, the output block at `outBlk` of the inputs — the modulus of the two
products of the point's frames with the filter banks — and the scratch at something. -/

theorem sound_kernel (c : Dev nD) (E : Set ℕ) (i : grid0.Coords)
    (arg2 : Memref sig .tc .vmem S1x1x378853 .f32) (harg2 : arg2.IsWhole)
    (arg3 : Memref sig .tc .vmem S168x23013 .bf16) (harg3 : arg3.IsWhole)
    (arg4 : Memref sig .tc .vmem S168x23013 .bf16) (harg4 : arg4.IsWhole)
    (arg5 : Memref sig .tc .vmem S1x24x168 .f32) (harg5 : arg5.IsWhole)
    (arg6 : Memref sig .tc .vmem S24x23013 .bf16) (harg6 : arg6.IsWhole)
    (x0 : Vec F S1x1x378853 .f32) (x1 : Vec F S168x23013 .bf16) (x2 : Vec F S168x23013 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk i x0 x1 x2) ∗ (∃ d, owns (c : Thread nD τ) arg6 fullShare d)) -∗ K ⟨⟩))
      ⊢ wp frame (wpE (defs₀ (F := F)) Variants.none c none) E (cc0__cqt_kernel i arg2 harg2 arg3 harg3 arg4 harg4 arg5 harg5 arg6 harg6) K := by
  have hrun := fun fs f3 => (bodyRun c i arg2 harg2 arg3 harg3 arg4 harg4 arg5 harg5 arg6 harg6 x0 x1 x2 fs).2.2 f3 E K
  unfold owns at hrun ⊢
  iintro ⟨H0, H1, H2, ⟨%d3, %f3, -, H3⟩, ⟨%ds, %fs, -, HS⟩, Hk⟩
  iapply (hrun fs f3)
  isplitl [H0]; · iexact H0
  isplitl [H1]; · iexact H1
  isplitl [H2]; · iexact H2
  isplitl [H3]; · iexact H3
  isplitl [HS]; · iexact HS
  iintro ⟨H0, H1, H2, H3, HS⟩
  iapply Hk
  isplitl [H0]; · iexact H0
  isplitl [H1]; · iexact H1
  isplitl [H2]; · iexact H2
  isplitl [H3]
  · iexists _; isplitr
    swap; · iexact H3
    ipureintro
    rw [bodyRun_out, View.read_writes_eq_canon _ _ _ (fun y => ⟨_, List.mem_singleton_self _, View.mem_set_unit_zero zero3 Gen.inb_S1x24x168_S1x24x168_0_0_0 y⟩),
      View.canon_unit_zero zero3]
  iexists _, _; isplitr
  swap; · iexact HS
  ipureintro; rfl

/-! ## The pipeline's proof data -/

/-- The proof data of the pipeline on core `c`: the arrays as the region finds them; after the body at point `t`
    each input's buffer at its block and the output's at `outBlk` of the input blocks; the invariant the scratch and
    the generator register at something; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The scratch operand: a whole scoped buffer of the kernel's own. -/
abbrev scM : Memref sig .tc .vmem S24x23013 .bf16 := Memref.whole cc0_scratch0

/-- The invariant, with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨HS, Hg⟩, Ho, ⟨%d0, H0⟩, ⟨%d1, H1⟩, ⟨%d2, H2⟩, ⟨%d3, H3⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS Hg]
  · isplitl [HS]; · iexact HS
    iexact Hg
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.Bridge.lean ====
import proofs.«140795_j13426067767882_2_alg».proof.Proof.KernelIdealArray
import proofs.«140795_j13426067767882_2_alg».proof.Proof.KernelIdealGlue
import proofs.«140795_j13426067767882_2_alg».proof.Proof.RefValue
import proofs.«140795_j13426067767882_2_alg».proof.Proof.KernelLaunch

/-!
  The idealized kernel's result is the specification.

  After the region the output array is `G3` of the extended signal and the narrowed filter banks; the host lines keep
  its first 689 rows and insert a unit axis. The extended signal is `Spec.padded` of the argument, the narrowed banks
  are the arguments, and the window of row `f` starts at `512 * f`: entry `(b, 0, f, q)` of the result is `Spec.G`.
-/

set_option maxRecDepth 16384

noncomputable section

namespace Cert.Bridge

open Cert.KernelIdeal Cert.KernelIdeal.Gen Cert.KernelIdeal.Body
open Idealize.ShloMosaic Idealize.ShloMosaic.TcCoe Idealize.SL.Sem
open Idealize.ShloMosaic.Pipeline (Dat Cfg Window BodyObligation cellOf)
open Idealize.ShloMosaic.ValueIdx
open scoped BigOperators

variable (m : (ℓ : Loc nD τ sig) → Buf (Elt Ideal) ℓ) (c : Dev nD)

/-- The pad value: the integer zero converted to a float (never evaluated: both programs pad with it). -/
abbrev PV : EReal := Cert.KernelIdeal.Glue.PV

theorem row689_lt (f : Fin 689) : f.val < 696 := by have := f.isLt; omega

/-- One sum of products of the output array is `Spec.corr`, for an extended signal `A0` that is `Spec.padded` of `a`
    and a filter bank `A1` equal to `k`. -/
theorem corr_eq (A0 : S4x1x378853.Idx → EReal) (a : S4x1x352768.Idx → EReal)
    (h0 : ∀ (b : Fin 4) (p : Fin 378853), A0 (ix3 b (0 : Fin 1) p) = Cert.Spec.padded a PV b p.val)
    (A1 k : S168x23013.Idx → EReal) (hk : ∀ j, A1 j = k j) (b : Fin 4) (f : Fin 689) (q : Fin 168) :
    (∑ n : Fin 23013, A0 (ix3 b (0 : Fin 1) ⟨512 * f.val + n.val, win_inb ⟨f.val, row689_lt f⟩ n⟩) * A1 (ix2 q n))
      = Cert.Spec.corr a PV k b f q := by
  unfold Cert.Spec.corr
  refine Finset.sum_congr rfl fun n _ => ?_
  rw [hk, h0 b ⟨512 * f.val + n.val, win_inb ⟨f.val, row689_lt f⟩ n⟩]

/-- Entry `(b, f, q)` of the output array, `f` one of the 689 rows kept, is the specification's. -/
theorem G3_apply (A0 : S4x1x378853.Idx → EReal) (a : S4x1x352768.Idx → EReal)
    (h0 : ∀ (b : Fin 4) (p : Fin 378853), A0 (ix3 b (0 : Fin 1) p) = Cert.Spec.padded a PV b p.val)
    (A1 k1 : S168x23013.Idx → EReal) (h1 : ∀ j, A1 j = k1 j) (A2 k2 : S168x23013.Idx → EReal) (h2 : ∀ j, A2 j = k2 j)
    (b : Fin 4) (f : Fin 689) (q : Fin 168) :
    G3 A0 A1 A2 (ix3 b (⟨f.val, row689_lt f⟩ : Fin 696) q) = Cert.Spec.G a k1 k2 PV (ix4 b (0 : Fin 1) f q) := by
  show Ideal.sqrt (
      (∑ n : Fin 23013, A0 (ix3 b (0 : Fin 1) ⟨512 * f.val + n.val, win_inb ⟨f.val, row689_lt f⟩ n⟩) * A1 (ix2 q n))
        * (∑ n : Fin 23013, A0 (ix3 b (0 : Fin 1) ⟨512 * f.val + n.val, win_inb ⟨f.val, row689_lt f⟩ n⟩) * A1 (ix2 q n))
      + (∑ n : Fin 23013, A0 (ix3 b (0 : Fin 1) ⟨512 * f.val + n.val, win_inb ⟨f.val, row689_lt f⟩ n⟩) * A2 (ix2 q n))
        * (∑ n : Fin 23013, A0 (ix3 b (0 : Fin 1) ⟨512 * f.val + n.val, win_inb ⟨f.val, row689_lt f⟩ n⟩) * A2 (ix2 q n)))
    = Ideal.sqrt (Cert.Spec.corr a PV k1 b f q * Cert.Spec.corr a PV k1 b f q + Cert.Spec.corr a PV k2 b f q * Cert.Spec.corr a PV k2 b f q)
  rw [corr_eq A0 a h0 A1 k1 h1 b f q, corr_eq A0 a h0 A2 k2 h2 b f q]

/-- THE RESULT of the idealized kernel program is the specification of its arguments. -/
theorem result_eq :
    (Pipeline.afterTail₀ cfgs (dats m) 0 (V0 m) [hostOps1] c main_v5 : S4x1x689x168.Idx → EReal)
      = Cert.Spec.G (m ((c : Thread nD τ).loc main_arg0) : S4x1x352768.Idx → EReal)
          (m ((c : Thread nD τ).loc main_arg1) : S168x23013.Idx → EReal)
          (m ((c : Thread nD τ).loc main_arg2) : S168x23013.Idx → EReal) PV := by
  funext j
  obtain ⟨b, u, f, q, rfl⟩ : ∃ (b : Fin 4) (u : Fin 1) (f : Fin 689) (q : Fin 168), j = ix4 b u f q :=
    ⟨j 0, j 1, j 2, j 3, eq_ix4 j⟩
  obtain rfl : u = 0 := Subsingleton.elim _ _
  rw [Cert.KernelIdeal.Glue.tail_apply m c (dats m) b f q, final3 m c]
  exact G3_apply (V m c main_v0) (m ((c : Thread nD τ).loc main_arg0)) (Cert.KernelIdeal.Glue.V_v0_apply m c)
    (V m c main_v1) (m ((c : Thread nD τ).loc main_arg1)) (Cert.KernelIdeal.Glue.V_v1_apply m c)
    (V m c main_v2) (m ((c : Thread nD τ).loc main_arg2)) (Cert.KernelIdeal.Glue.V_v2_apply m c) b f q

end Cert.Bridge

end
-- ==== Proof.lean ====
/-
  The certificate of a sliding-window filter-bank kernel against its reference, over the extended reals.

  Both programs extend each of four signals of 352768 samples on the left by 22501 copies of a pad value, cut the
  extended signal into 689 overlapping frames of 23013 entries — frame `f` starts at entry `512 * f` —, take the plain
  sums of products of each frame with the 168 rows of a real and of an imaginary filter bank, and return the modulus
  `sqrt (re * re + im * im)` of each pair (`Cert.Spec.G`).

  The reference gathers all frames at once and contracts them with the banks. The kernel keeps one signal resident per
  batch and walks a grid of 4 × 29 points: at point `(b, s)` it copies the 24 frames `24 * s .. 24 * s + 23` of batch `b`
  row by row into a scratch array — two rows share a word, so each row store is a read-modify-write of a two-row block,
  and a pair of them replaces the block whatever it held (`Cert.LibRowPairs.read_pair`) —, multiplies the scratch with
  both banks and writes the 24 × 168 moduli back. The 116 output blocks tile a 4 × 696 × 168 array whose first 689 rows
  the program returns. Over the extended reals a change of float format is the identity, a product into a zero
  accumulator is the plain sum of products, and the two programs add the same products in the same order; the
  precondition is not used.

  The frames (the programs run to their end, fault nowhere and leave their arguments unchanged) are proved for the
  kernel program at any float instance from one run of its body (`bodyRun`), and cited at the word-level and at the
  ideal instance; the reference's frame is its run with the result dropped. The idealization rewrote nothing, so
  `preserves` is trivial.
-/
import proofs.«140795_j13426067767882_2_alg».proof.Defs
import proofs.«140795_j13426067767882_2_alg».proof.Proof.Gen.Kernel
import proofs.«140795_j13426067767882_2_alg».proof.Proof.Gen.KernelIdeal
import proofs.«140795_j13426067767882_2_alg».proof.Proof.Gen.ReferenceIdeal
import proofs.«140795_j13426067767882_2_alg».proof.Proof.Gen.Pre_finite_inputs
import proofs.«140795_j13426067767882_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification of their (agreeing) arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) Cert.Bridge.PV, ?_, ?_⟩
  · refine (θ_run Cert.KernelIdeal.defs _ _).mono (fun r h c => ⟨?_, ?_, ?_, ?_⟩) (Cert.KernelIdeal.Body.run_main (F := Ideal) m ρ)
    · exact ((h c).2 Cert.KernelIdeal.main_v5 (Pipeline.mem_restRefs_of Cert.KernelIdeal.main_v5 (by decide) (by decide))).trans
        (Cert.Bridge.result_eq m c)
    · exact ((h c).2 Cert.KernelIdeal.main_arg0 (Pipeline.mem_restRefs_of Cert.KernelIdeal.main_arg0 (by decide) (by decide))).trans
        (Cert.KernelIdeal.Gen.W_main_arg0 m (Cert.KernelIdeal.Body.dats m) c)
    · exact ((h c).2 Cert.KernelIdeal.main_arg1 (Pipeline.mem_restRefs_of Cert.KernelIdeal.main_arg1 (by decide) (by decide))).trans
        (Cert.KernelIdeal.Gen.W_main_arg1 m (Cert.KernelIdeal.Body.dats m) c)
    · exact ((h c).2 Cert.KernelIdeal.main_arg2 (Pipeline.mem_restRefs_of Cert.KernelIdeal.main_arg2 (by decide) (by decide))).trans
        (Cert.KernelIdeal.Gen.W_main_arg2 m (Cert.KernelIdeal.Body.dats m) c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v22_eq, Cert.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
